-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S64x16 .f32) (main_arg5 : FVec F S16 .f32) (main_arg6 : FVec F S64x2 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x2 .f32 := Host.absf main_arg6
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) (main_arg6 : FVec F S64x2 .f32) (main_arg7 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x2 : Shape := ⟨2, ![64, 2]⟩
abbrev S2 : Shape := ⟨1, ![2]⟩
abbrev S64x18 : Shape := ⟨2, ![64, 18]⟩
abbrev S18 : Shape := ⟨1, ![18]⟩
abbrev S1x18 : Shape := ⟨2, ![1, 18]⟩
abbrev S1x64 : Shape := ⟨2, ![1, 64]⟩
abbrev S10000x64 : Shape := ⟨2, ![10000, 64]⟩
abbrev S10000x18 : Shape := ⟨2, ![10000, 18]⟩
abbrev S400x10000 : Shape := ⟨2, ![400, 10000]⟩
abbrev S400x18 : Shape := ⟨2, ![400, 18]⟩
abbrev S400x64 : Shape := ⟨2, ![400, 64]⟩
abbrev S10000x16 : Shape := ⟨2, ![10000, 16]⟩
abbrev S10000x2 : Shape := ⟨2, ![10000, 2]⟩
abbrev S10000x1 : Shape := ⟨2, ![10000, 1]⟩
abbrev S400x16 : Shape := ⟨2, ![400, 16]⟩
abbrev S400x2 : Shape := ⟨2, ![400, 2]⟩
abbrev S400x1 : Shape := ⟨2, ![400, 1]⟩
abbrev S400 : Shape := ⟨1, ![400]⟩
abbrev S10000 : Shape := ⟨1, ![10000]⟩

abbrev nBuf : Space → Nat
  | .hbm => 18
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S64x2, .f32⟩
  | .hbm, ⟨7, _⟩ => ⟨S2, .f32⟩
  | .hbm, ⟨8, _⟩ => ⟨S64x18, .f32⟩
  | .hbm, ⟨9, _⟩ => ⟨S18, .f32⟩
  | .hbm, ⟨10, _⟩ => ⟨S1x18, .f32⟩
  | .hbm, ⟨11, _⟩ => ⟨S1x64, .f32⟩
  | .hbm, ⟨12, _⟩ => ⟨S10000x64, .f32⟩
  | .hbm, ⟨13, _⟩ => ⟨S10000x18, .f32⟩
  | .hbm, ⟨14, _⟩ => ⟨S10000x16, .f32⟩
  | .hbm, ⟨15, _⟩ => ⟨S10000x2, .f32⟩
  | .hbm, ⟨16, _⟩ => ⟨S10000x1, .f32⟩
  | .hbm, ⟨17, _⟩ => ⟨S10000, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S1x64, .f32⟩
  | .local _ .vmem, ⟨7, _⟩ => ⟨S64x18, .f32⟩
  | .local _ .vmem, ⟨8, _⟩ => ⟨S400x18, .f32⟩
  | .local _ .vmem, ⟨9, _⟩ => ⟨S400x18, .f32⟩
  | .local _ .vmem, ⟨10, _⟩ => ⟨S400x10000, .f32⟩
  | .local _ .vmem, ⟨11, _⟩ => ⟨S400x10000, .f32⟩
  | .local _ .vmem, ⟨12, _⟩ => ⟨S10000x18, .f32⟩
  | .local _ .vmem, ⟨13, _⟩ => ⟨S1x18, .f32⟩
  | .local _ .vmem, ⟨14, _⟩ => ⟨S400x16, .f32⟩
  | .local _ .vmem, ⟨15, _⟩ => ⟨S400x16, .f32⟩
  | .local _ .vmem, ⟨16, _⟩ => ⟨S400x2, .f32⟩
  | .local _ .vmem, ⟨17, _⟩ => ⟨S400x2, .f32⟩
  | .local _ .vmem, ⟨18, _⟩ => ⟨S400x1, .f32⟩
  | .local _ .vmem, ⟨19, _⟩ => ⟨S400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x18 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x18 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x18 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x18 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S64x16_S64x2_S64x18_d1 : Shape.Concatenates [S64x16, S64x2] S64x18 1
  concatenates_S16_S2_S18_d0 : Shape.Concatenates [S16, S2] S18 0
  bcast_S18_S1x18_1 : S18.BroadcastsInDim S1x18 (![1] : Fin 1 → Fin S1x18.rank)
  bcast_S64_S1x64_1 : S64.BroadcastsInDim S1x64 (![1] : Fin 1 → Fin S1x64.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x18_S64x18_0_0 : ∀ a, (![0, 0] : Fin 2 → Nat) a + S64x18.size a ≤ S64x18.size a
  h_S64x18 : 0 < S64x18.numel
  shapeCasts_S64x18_S64x18 : S64x18.ShapeCasts S64x18
  inb_S400x18_S400x18_0_0 : ∀ a, (![0, 0] : Fin 2 → Nat) a + S400x18.size a ≤ S400x18.size a
  h_S400x18 : 0 < S400x18.numel
  inb_S10000x18_S10000x18_0_0 : ∀ a, (![0, 0] : Fin 2 → Nat) a + S10000x18.size a ≤ S10000x18.size a
  h_S10000x18 : 0 < S10000x18.numel
  shapeCasts_S10000x18_S10000x18 : S10000x18.ShapeCasts S10000x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S400x18 : S1x18.Broadcasts S400x18
  slices_S400x18_o0_0_S400x16 : S400x18.Slices ![0, 0] S400x16
  slices_S400x18_o0_16_S400x2 : S400x18.Slices ![0, 16] S400x2
  reduces_S400x16_S400 : S400x16.Reduces [1] S400
  shapeCasts_S400_S400x1 : S400.ShapeCasts S400x1
  broadcasts_S400x1_S400x16 : S400x1.Broadcasts S400x16
  reduces_S400x2_S400 : S400x2.Reduces [1] S400
  broadcasts_S400x1_S400x2 : S400x1.Broadcasts S400x2
  inb_S400x16_S400x16_0_0 : ∀ a, (![0, 0] : Fin 2 → Nat) a + S400x16.size a ≤ S400x16.size a
  h_S400x16 : 0 < S400x16.numel
  inb_S400x2_S400x2_0_0 : ∀ a, (![0, 0] : Fin 2 → Nat) a + S400x2.size a ≤ S400x2.size a
  h_S400x2 : 0 < S400x2.numel
  slices_S400x16_o0_15_S400x1 : S400x16.Slices ![0, 15] S400x1
  inb_S400x1_S400x1_0_0 : ∀ a, (![0, 0] : Fin 2 → Nat) a + S400x1.size a ≤ S400x1.size a
  h_S400x1 : 0 < S400x1.numel
  shapeCasts_S10000x1_S10000 : S10000x1.ShapeCasts S10000
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x18_S400x18_1_0_0_1_n_n_wf : DotDims.WF S400x64 S64x18 S400x18 [1] [0] [0] [1] [] []
  dot_S400x10000_S10000x18_S400x18_1_0_0_1_n_n_wf : DotDims.WF S400x10000 S10000x18 S400x18 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x18.size a ≤ S64x18.size a
  hwx1_3 : ∀ i : grid1.Coords, EltTy.bits .f32 = 32 ∨ (Rect.block (s := S64x18) S64x18.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x18.size a ≤ S10000x18.size a
  hwx1_4 : ∀ i : grid1.Coords, EltTy.bits .f32 = 32 ∨ (Rect.block (s := S10000x18) S400x18.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x18.size a ≤ S10000x18.size a
  hwx2_1 : ∀ i : grid2.Coords, EltTy.bits .f32 = 32 ∨ (Rect.block (s := S10000x18) S10000x18.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x18.size a ≤ S1x18.size a
  hwx2_2 : ∀ i : grid2.Coords, EltTy.bits .f32 = 32 ∨ (Rect.block (s := S1x18) S1x18.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x2.size a ≤ S10000x2.size a
  hwx2_4 : ∀ i : grid2.Coords, EltTy.bits .f32 = 32 ∨ (Rect.block (s := S10000x2) S400x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x1.size a ≤ S10000x1.size a
  hwx2_5 : ∀ i : grid2.Coords, EltTy.bits .f32 = 32 ∨ (Rect.block (s := S10000x1) S400x1.size (cc2_transform_5 i) (hinb2_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x18_S400x18_1_0_0_1_n_n : DotDims S400x64 S64x18 S400x18 where
  lhsContracting := [1]
  rhsContracting := [0]
  lhsNonContracting := [0]
  rhsNonContracting := [1]
  lhsBatch := []
  rhsBatch := []
  wf := dot_S400x64_S64x18_S400x18_1_0_0_1_n_n_wf
def dot_S400x10000_S10000x18_S400x18_1_0_0_1_n_n : DotDims S400x10000 S10000x18 S400x18 where
  lhsContracting := [1]
  rhsContracting := [0]
  lhsNonContracting := [0]
  rhsNonContracting := [1]
  lhsBatch := []
  rhsBatch := []
  wf := dot_S400x10000_S10000x18_S400x18_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v4) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S64x18.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S400x18.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x18.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x18.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S400x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6_1) S400x2.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_2) S400x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x2 : Shape := ⟨2, ![64, 2]⟩
abbrev S2 : Shape := ⟨1, ![2]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000x2 : Shape := ⟨2, ![10000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 72
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S64x2, .f32⟩
  | .hbm, ⟨7, _⟩ => ⟨S2, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x16, .f32⟩
  | .hbm, ⟨17, _⟩ => ⟨S10000x16, .f32⟩
  | .hbm, ⟨18, _⟩ => ⟨S1x16, .f32⟩
  | .hbm, ⟨19, _⟩ => ⟨S10000x16, .f32⟩
  | .hbm, ⟨20, _⟩ => ⟨S10000x16, .f32⟩
  | .hbm, ⟨21, _⟩ => ⟨S10000x2, .f32⟩
  | .hbm, ⟨22, _⟩ => ⟨S10000x2, .f32⟩
  | .hbm, ⟨23, _⟩ => ⟨S1x2, .f32⟩
  | .hbm, ⟨24, _⟩ => ⟨S10000x2, .f32⟩
  | .hbm, ⟨25, _⟩ => ⟨S10000x2, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x16, .f32⟩
  | .hbm, ⟨33, _⟩ => ⟨S10000x16, .f32⟩
  | .hbm, ⟨34, _⟩ => ⟨S10000x16, .f32⟩
  | .hbm, ⟨35, _⟩ => ⟨S_, .f32⟩
  | .hbm, ⟨36, _⟩ => ⟨S10000, .f32⟩
  | .hbm, ⟨37, _⟩ => ⟨S10000x1, .f32⟩
  | .hbm, ⟨38, _⟩ => ⟨S10000x1, .f32⟩
  | .hbm, ⟨39, _⟩ => ⟨S10000x16, .f32⟩
  | .hbm, ⟨40, _⟩ => ⟨S10000x16, .f32⟩
  | .hbm, ⟨41, _⟩ => ⟨S_, .f32⟩
  | .hbm, ⟨42, _⟩ => ⟨S10000, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000x1, .f32⟩
  | .hbm, ⟨47, _⟩ => ⟨S10000x2, .f32⟩
  | .hbm, ⟨48, _⟩ => ⟨S10000x2, .f32⟩
  | .hbm, ⟨49, _⟩ => ⟨S10000x2, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x1, .f32⟩
  | .hbm, ⟨54, _⟩ => ⟨S10000x2, .f32⟩
  | .hbm, ⟨55, _⟩ => ⟨S10000x2, .f32⟩
  | .hbm, ⟨56, _⟩ => ⟨S_, .f32⟩
  | .hbm, ⟨57, _⟩ => ⟨S10000, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S_, .f32⟩
  | .hbm, ⟨66, _⟩ => ⟨S10000, .f32⟩
  | .hbm, ⟨67, _⟩ => ⟨S10000x1, .f32⟩
  | .hbm, ⟨68, _⟩ => ⟨S10000x16, .f32⟩
  | .hbm, ⟨69, _⟩ => ⟨S10000x16, .f32⟩
  | .hbm, ⟨70, _⟩ => ⟨S10000x1, .f32⟩
  | .hbm, ⟨71, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v16 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v17 : Ref sig .tc := ⟨.hbm, 55, rfl⟩
abbrev main_cst : Ref sig .tc := ⟨.hbm, 56, rfl⟩
abbrev main_v18 : Ref sig .tc := ⟨.hbm, 57, rfl⟩
abbrev main_cst_0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  reducesTo_S10000x2_S10000_d1 : S10000x2.ReducesTo [1] S10000
  bcast_S10000x1_S10000x2_0_1 : S10000x1.BroadcastsInDim S10000x2 (![0, 1] : Fin 2 → Fin S10000x2.rank)
  slices_S10000x16_S10000x1_0_15 : S10000x16.Slices ![0, 15] S10000x1
  shapeCasts_S10000x1_S10000 : S10000x1.ShapeCasts S10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x64_S64x2_S10000x2_1_0_0_1_n_n_wf : DotDims.WF S10000x64 S64x2 S10000x2 [1] [0] [0] [1] [] []
  dot_S10000x10000_S10000x2_S10000x2_1_0_0_1_n_n_wf : DotDims.WF S10000x10000 S10000x2 S10000x2 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def dot_S10000x10000_S10000x2_S10000x2_1_0_0_1_n_n : DotDims S10000x10000 S10000x2 S10000x2 where
  lhsContracting := [1]
  rhsContracting := [0]
  lhsNonContracting := [0]
  rhsNonContracting := [1]
  lhsBatch := []
  rhsBatch := []
  wf := dot_S10000x10000_S10000x2_S10000x2_1_0_0_1_n_n_wf

class Facts : Prop extends Facts₀ where

variable [Facts]
-- ==== Proof.KernelRun.lean ====
/-
  The idealized kernel program's run with its three results named.

  The program is five segments: the host operations that concatenate the two heads' weights and biases and lay the
  biases out as rows; the three launched regions (X·W₁; the hidden layer times the concatenated heads, 400 rows of the
  adjacency matrix per grid point; the logits and their softmax heads, again 400 rows per point); and the host
  reshape of the last result. Every weakly fair execution terminates without a fault, and each buffer ends at the
  contents the fold of these segments over the launch memory gives it: here that is stated for the three result
  buffers, beside the arguments ending unchanged.
-/
import proofs.«106332_g43568148250684_cont_sun_m_331_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    segment boundary's contents and the argument arrays as launched. -/
theorem results : θ_run defs (onTc (τ := τ) (main (F := F))) ⟨m, fun _ => 0, ρ⟩ (fun r => ∀ c : Dev nD,
      r.2.mem ((c.tc : Thread nD τ).loc main_v6_0) = W5 m ρ c (Proc.devRef .tc main_v6_0)
      ∧       r.2.mem ((c.tc : Thread nD τ).loc main_v6_1) = W5 m ρ c (Proc.devRef .tc main_v6_1)
      ∧       r.2.mem ((c.tc : Thread nD τ).loc main_v7) = W5 m ρ c (Proc.devRef .tc main_v7)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6_0 (by decide)),
       h c _ (mem_uc main_v6_1 (by decide)),
       h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.Bounds.lean ====
/-
  The buffer contents at the boundaries between the program's segments, read back to the launch memory.

  The first host stretch writes only the paired heads (the two weight matrices side by side), the paired biases laid
  out as a row, and the first layer's bias as a row; no segment writes an argument array, and a launched region
  writes only its output array. So where a region is entered, each array it reads is either an argument as
  launched, a result of that first stretch, or the output of an earlier region; and the last host operation only
  reshapes the third region's last output.
-/
import proofs.«106332_g43568148250684_cont_sun_m_331_2_alg».proof.Proof.Gen.KernelIdeal.Frame
import Idealize.ShloMosaic.Lib.StableHlo.Run
import Idealize.ShloMosaic.PureOps.Ideal

set_option maxRecDepth 16384

noncomputable section

namespace Cert.KernelIdeal.Bounds

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Before the first region -/

/-- An array the first host stretch does not write is as launched. -/
theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0))
theorem W1_arg1 (c : Dev nD) : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg1) = W0 m ρ c (Proc.devRef .tc main_arg1))
theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2))

/-- The paired heads: the two weight matrices side by side. -/
theorem W1_v0 (c : Dev nD) : W1 m ρ c (Proc.devRef .tc main_v0)
    = concatenate S64x18 1 [⟨S64x16, m ((c : Thread nD τ).loc main_arg4)⟩, ⟨S64x2, m ((c : Thread nD τ).loc main_arg6)⟩] Facts₀.concatenates_S64x16_S64x2_S64x18_d1 := by
  show StableHlo.after hostOps0 (W0 m ρ c) (Proc.devRef .tc main_v0) = _
  after_results

/-- The paired biases as a row. -/
theorem W1_v2 (c : Dev nD) : W1 m ρ c (Proc.devRef .tc main_v2)
    = broadcastInDim S1x18 ![1] Facts₀.bcast_S18_S1x18_1 (concatenate S18 0 [⟨S16, m ((c : Thread nD τ).loc main_arg5)⟩, ⟨S2, m ((c : Thread nD τ).loc main_arg7)⟩] Facts₀.concatenates_S16_S2_S18_d0) := by
  show StableHlo.after hostOps0 (W0 m ρ c) (Proc.devRef .tc main_v2) = _
  after_results

/-- The first layer's bias as a row. -/
theorem W1_v3 (c : Dev nD) : W1 m ρ c (Proc.devRef .tc main_v3)
    = broadcastInDim S1x64 ![1] Facts₀.bcast_S64_S1x64_1 (m ((c : Thread nD τ).loc main_arg3)) := by
  show StableHlo.after hostOps0 (W0 m ρ c) (Proc.devRef .tc main_v3) = _
  after_results

/-! ## Where the second region is entered -/

theorem V2_arg1 (c : Dev nD) : V2 m ρ c main_arg1 = m ((c : Thread nD τ).loc main_arg1) :=
  (W2_of_ne m ρ c main_arg1 (by decide)).trans (W1_arg1 m ρ c)
theorem V2_v0 (c : Dev nD) : V2 m ρ c main_v0 = W1 m ρ c (Proc.devRef .tc main_v0) := W2_of_ne m ρ c main_v0 (by decide)
theorem V2_v2 (c : Dev nD) : V2 m ρ c main_v2 = W1 m ρ c (Proc.devRef .tc main_v2) := W2_of_ne m ρ c main_v2 (by decide)
theorem V2_v3 (c : Dev nD) : V2 m ρ c main_v3 = W1 m ρ c (Proc.devRef .tc main_v3) := W2_of_ne m ρ c main_v3 (by decide)
/-- The first region's output array. -/
theorem V2_v4 (c : Dev nD) : V2 m ρ c main_v4 = (dat0 (V1 m ρ) c).arrAt 2 cfg0.N := W2_arr m ρ c 2

/-! ## Where the third region is entered -/

theorem V3_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_arg1 m ρ c)
theorem V3_v2 (c : Dev nD) : V3 m ρ c main_v2 = W1 m ρ c (Proc.devRef .tc main_v2) :=
  (W3_of_ne m ρ c main_v2 (by decide)).trans (V2_v2 m ρ c)
/-- The second region's output array. -/
theorem V3_v5 (c : Dev nD) : V3 m ρ c main_v5 = (dat1 (V2 m ρ) c).arrAt 4 cfg1.N := W3_arr m ρ c 4

/-! ## At the end -/

/-- The first two results are the third region's first two output arrays: the last host operation writes neither. -/
theorem W5_v6_0 (c : Dev nD) : W5 m ρ c (Proc.devRef .tc main_v6_0) = (dat2 (V3 m ρ) c).arrAt 3 cfg2.N :=
  ((StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps3 (W4 m ρ c) (Proc.devRef .tc main_v6_0) = W4 m ρ c (Proc.devRef .tc main_v6_0))).trans (W4_arr m ρ c 3)
theorem W5_v6_1 (c : Dev nD) : W5 m ρ c (Proc.devRef .tc main_v6_1) = (dat2 (V3 m ρ) c).arrAt 4 cfg2.N :=
  ((StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps3 (W4 m ρ c) (Proc.devRef .tc main_v6_1) = W4 m ρ c (Proc.devRef .tc main_v6_1))).trans (W4_arr m ρ c 4)

/-- The third result is the third region's last output array, reshaped from one column to a vector. -/
theorem W5_v7 (c : Dev nD) : W5 m ρ c (Proc.devRef .tc main_v7)
    = shapeCast S10000 ((dat2 (V3 m ρ) c).arrAt 5 cfg2.N : S10000x1.Idx → EReal) Facts₀.shapeCasts_S10000x1_S10000 := by
  rw [← W4_arr m ρ c 5]
  show StableHlo.after hostOps3 (W4 m ρ c) (Proc.devRef .tc main_v7) = _
  after_results
  rfl

end Cert.KernelIdeal.Bounds

end
-- ==== Proof.Spec.lean ====
/-
  The two-layer graph convolution with its softmax heads, as plain functions of the argument arrays.

  Arrays are read through their coordinates: a matrix `x` of extent a × b is the function `p q ↦ x (p, q)`.
  With A the adjacency matrix (n × n), X the features, W₁, b₁ the first layer and (W, b) one of the two heads:
    XW        = X · W₁                                (n × 64)
    H         = max (A · XW + b₁, 0)                  (n × 64; the bias along each row)
    HW        = H · W                                 (n × c)
    Y         = A · HW + b                            (n × c)
  and along each row y of Y, with m the row's maximum taken from −∞ and S = ∑ₖ exp (yₖ − m):
    log-softmax   yₖ ↦ (yₖ − m) − log S
    softmax       yₖ ↦ exp (yₖ − m) / S.
  All sums, products, maxima, exp, log and the quotient are the exact ones on the extended reals.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A rank-2 array read through its two coordinates. -/
abbrev c2 {a b : ℕ} (x : (⟨2, ![a, b]⟩ : Shape).Idx → EReal) : Fin a → Fin b → EReal := fun p q => x (ix2 p q)
/-- A rank-1 array read through its coordinate. -/
abbrev c1 {a : ℕ} (x : (⟨1, ![a]⟩ : Shape).Idx → EReal) : Fin a → EReal := fun p => x (ix1 p)

/-- The matrix product, entry (p, q): the sum over the shared axis. -/
def mm {a b c : ℕ} (A : Fin a → Fin b → EReal) (B : Fin b → Fin c → EReal) (p : Fin a) (q : Fin c) : EReal :=
  ∑ k : Fin b, A p k * B k q

/-- A matrix plus a bias vector along each row. -/
def addRow {a c : ℕ} (M : Fin a → Fin c → EReal) (b : Fin c → EReal) (p : Fin a) (q : Fin c) : EReal := M p q + b q

/-- The hidden layer: max (A · XW + b₁, 0). -/
def hid {n d : ℕ} (A : Fin n → Fin n → EReal) (XW : Fin n → Fin d → EReal) (b1 : Fin d → EReal) (p : Fin n) (q : Fin d) : EReal :=
  max (addRow (mm A XW) b1 p q) 0

/-- One head's logits: A · (H · W) + b. -/
def logits {n d c : ℕ} (A : Fin n → Fin n → EReal) (H : Fin n → Fin d → EReal) (W : Fin d → Fin c → EReal) (b : Fin c → EReal) :
    Fin n → Fin c → EReal := addRow (mm A (mm H W)) b

/-- A row's maximum, taken from −∞ (the f32 pattern of −∞). -/
def rowMax {c : ℕ} (y : Fin c → EReal) : EReal := Finset.fold max (Ideal.ofBits .f32 0xFF800000#32) y Finset.univ

/-- The row's sum of exponentials after the maximum is subtracted. -/
def expSum {c : ℕ} (y : Fin c → EReal) : EReal := ∑ k : Fin c, Ideal.exp (y k - rowMax y)

/-- The log-softmax of a row. -/
def lsm {c : ℕ} (y : Fin c → EReal) (k : Fin c) : EReal := (y k - rowMax y) - Ideal.log (expSum y)

/-- The softmax of a row. -/
def smx {c : ℕ} (y : Fin c → EReal) (k : Fin c) : EReal := Ideal.div (Ideal.exp (y k - rowMax y)) (expSum y)

/-- The f32 pattern of −∞ is the bottom of the extended reals. -/
theorem ofBits_negInf : Ideal.ofBits .f32 0xFF800000#32 = (⊥ : EReal) := by simp [Ideal.ofBits, Ideal.ieee]

/-- The hidden layer H of the network, from the argument arrays. -/
def hidden (x : Fin 10000 → Fin 128 → EReal) (A : Fin 10000 → Fin 10000 → EReal) (w1 : Fin 128 → Fin 64 → EReal) (b1 : Fin 64 → EReal) :
    Fin 10000 → Fin 64 → EReal := hid A (mm x w1) b1

/-- The first head's logits (16 classes). -/
def y1 (x : Fin 10000 → Fin 128 → EReal) (A : Fin 10000 → Fin 10000 → EReal) (w1 : Fin 128 → Fin 64 → EReal) (b1 : Fin 64 → EReal)
    (w2 : Fin 64 → Fin 16 → EReal) (b2 : Fin 16 → EReal) : Fin 10000 → Fin 16 → EReal := logits A (hidden x A w1 b1) w2 b2

/-- The second head's logits (2 classes). -/
def y2 (x : Fin 10000 → Fin 128 → EReal) (A : Fin 10000 → Fin 10000 → EReal) (w1 : Fin 128 → Fin 64 → EReal) (b1 : Fin 64 → EReal)
    (w3 : Fin 64 → Fin 2 → EReal) (b3 : Fin 2 → EReal) : Fin 10000 → Fin 2 → EReal := logits A (hidden x A w1 b1) w3 b3

end Cert.Gcn

end
-- ==== Proof.Heads.lean ====
/-
  The two heads side by side. The kernel multiplies the hidden layer by the two heads' weight matrices at once: W₂
  (16 columns) and W₃ (2 columns) are laid side by side as one matrix of 18 columns, and the two bias vectors as one
  vector of 18 entries. Column k of the first head is column k of the pair; column k of the second is column 16 + k.
  Also the hidden layer over a rectangular block of rows of the adjacency matrix: a grid point sees 400 of its rows.
-/
import proofs.«106332_g43568148250684_cont_sun_m_331_2_alg».proof.Proof.Spec

noncomputable section

namespace Cert.Gcn

/-- Column k of the first head among the 18 columns. -/
def lo (k : Fin 16) : Fin 18 := ⟨k.val, by have := k.isLt; omega⟩
/-- Column k of the second head among the 18 columns. -/
def hi (k : Fin 2) : Fin 18 := ⟨16 + k.val, by have := k.isLt; omega⟩

/-- Two matrices side by side: the 16 columns of the first, then the 2 of the second. -/
def catCols {d : ℕ} (w2 : Fin d → Fin 16 → EReal) (w3 : Fin d → Fin 2 → EReal) (j : Fin d) (k : Fin 18) : EReal :=
  if h : k.val < 16 then w2 j ⟨k.val, h⟩ else w3 j ⟨k.val - 16, by have := k.isLt; omega⟩

/-- Two vectors end to end: the 16 entries of the first, then the 2 of the second. -/
def catVec (b2 : Fin 16 → EReal) (b3 : Fin 2 → EReal) (k : Fin 18) : EReal :=
  if h : k.val < 16 then b2 ⟨k.val, h⟩ else b3 ⟨k.val - 16, by have := k.isLt; omega⟩

/-- The hidden layer over any block of rows of the adjacency matrix (a rows × n block against the n × d product). -/
def hidR {a n d : ℕ} (A : Fin a → Fin n → EReal) (XW : Fin n → Fin d → EReal) (b1 : Fin d → EReal) (p : Fin a) (q : Fin d) : EReal :=
  max (addRow (mm A XW) b1 p q) 0

/-- A one-row matrix read as a vector. -/
abbrev row1 {c : ℕ} (b : (⟨2, ![1, c]⟩ : Idealize.ShloMosaic.Shape).Idx → EReal) : Fin c → EReal :=
  fun q => b (Idealize.ShloMosaic.ValueIdx.ix2 (0 : Fin 1) q)

end Cert.Gcn

end
-- ==== Proof.PayMm.lean ====
/-
  The kernel's matrix products read entry by entry. Each of the three bodies forms its values from plain
  a × b by b × c products accumulated into a zero array; read at the entry (p, q), such a product is the sum
  over the shared axis of the products of the entries, that is, the matrix product of the specification.
  On top of it: the bias row repeated down the rows, the maximum against zero, and the second product.
-/
import proofs.«106332_g43568148250684_cont_sun_m_331_2_alg».proof.Proof.Gen.KernelIdeal.Skeleton
import proofs.«106332_g43568148250684_cont_sun_m_331_2_alg».proof.Proof.Heads
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayMm

open Cert.KernelIdeal Cert.KernelIdeal.Gen Cert.Gcn Idealize.ShloMosaic Idealize.ShloMosaic.ValueIdx

/-! ### A plain product read at an entry -/

section Plain
variable {a b c : ℕ}

/-- The dimension numbers of a plain a × b by b × c product: the left operand's second axis is contracted
    against the right operand's first. -/
abbrev plainDims (wf : DotDims.WF (⟨2, ![a, b]⟩ : Shape) ⟨2, ![b, c]⟩ ⟨2, ![a, c]⟩ [1] [0] [0] [1] [] []) :
    DotDims (⟨2, ![a, b]⟩ : Shape) ⟨2, ![b, c]⟩ ⟨2, ![a, c]⟩ where
  lhsContracting := [1]
  rhsContracting := [0]
  lhsNonContracting := [0]
  rhsNonContracting := [1]
  lhsBatch := []
  rhsBatch := []
  wf := wf

variable (wf : DotDims.WF (⟨2, ![a, b]⟩ : Shape) ⟨2, ![b, c]⟩ ⟨2, ![a, c]⟩ [1] [0] [0] [1] [] [])

theorem plain_lhs0 (i : (⟨2, ![a, c]⟩ : Shape).Idx) (q : (plainDims wf).contr.Idx) :
    ((plainDims wf).lhsIdx i q 0).val = (i 0).val := by
  unfold DotDims.lhsIdx
  rw [dif_neg (show ¬(0 : Fin (⟨2, ![a, b]⟩ : Shape).rank) ∈ (plainDims wf).lhsBatch from List.not_mem_nil),
    dif_pos (show (0 : Fin (⟨2, ![a, b]⟩ : Shape).rank) ∈ (plainDims wf).lhsNonContracting from List.mem_singleton.mpr rfl)]
  rfl

theorem plain_lhs1 (i : (⟨2, ![a, c]⟩ : Shape).Idx) (q : (plainDims wf).contr.Idx) :
    ((plainDims wf).lhsIdx i q 1).val = (q ⟨0, Nat.one_pos⟩).val :=
  (plainDims wf).lhsIdx_val_of_single rfl i q

theorem plain_rhs0 (i : (⟨2, ![a, c]⟩ : Shape).Idx) (q : (plainDims wf).contr.Idx) :
    ((plainDims wf).rhsIdx i q 0).val = (q ⟨0, Nat.one_pos⟩).val :=
  (plainDims wf).rhsIdx_val_of_single rfl i q

theorem plain_rhs1 (i : (⟨2, ![a, c]⟩ : Shape).Idx) (q : (plainDims wf).contr.Idx) :
    ((plainDims wf).rhsIdx i q 1).val = (i 1).val := by
  unfold DotDims.rhsIdx
  rw [dif_neg (show ¬(1 : Fin (⟨2, ![b, c]⟩ : Shape).rank) ∈ (plainDims wf).rhsBatch from List.not_mem_nil),
    dif_pos (show (1 : Fin (⟨2, ![b, c]⟩ : Shape).rank) ∈ (plainDims wf).rhsNonContracting from List.mem_singleton.mpr rfl)]
  rfl

/-- A plain product accumulated into the zero array, at the entry (p, q): the sum over the shared axis. -/
theorem matmul_plain_apply (lhs : FVec Ideal (⟨2, ![a, b]⟩ : Shape) .f32) (rhs : FVec Ideal (⟨2, ![b, c]⟩ : Shape) .f32)
    (p : Fin a) (q : Fin c) :
    FloatOps.matmul (F := Ideal) (plainDims wf) none lhs rhs (constant (⟨2, ![a, c]⟩ : Shape) .f32 0x00000000#32) (ix2 p q)
      = ∑ k : Fin b, lhs (ix2 p k) * rhs (ix2 k q) := by
  rw [Ideal.matmul_constant_zero_apply, ← Equiv.sum_comp (contrEquiv1 (plainDims wf) b rfl rfl).symm]
  refine Finset.sum_congr rfl fun k _ => ?_
  have hk := contrEquiv1_symm_val (plainDims wf) b rfl rfl k
  have el : (plainDims wf).lhsIdx (ix2 p q) ((contrEquiv1 (plainDims wf) b rfl rfl).symm k) = ix2 p k :=
    funext fun ax => Fin.ext (by
      match ax with
      | ⟨0, _⟩ => exact plain_lhs0 wf _ _
      | ⟨1, _⟩ => exact (plain_lhs1 wf _ _).trans hk)
  have er : (plainDims wf).rhsIdx (ix2 p q) ((contrEquiv1 (plainDims wf) b rfl rfl).symm k) = ix2 k q :=
    funext fun ax => Fin.ext (by
      match ax with
      | ⟨0, _⟩ => exact (plain_rhs0 wf _ _).trans hk
      | ⟨1, _⟩ => exact plain_rhs1 wf _ _)
  rw [el, er]

end Plain

variable [Cert.KernelIdeal.Facts]

/-! ### The three bodies -/

/-- The first body's value: X · W₁. -/
theorem pay_xw (x0 : Vec Ideal S10000x128 .f32) (x1 : Vec Ideal S128x64 .f32) (p : Fin 10000) (q : Fin 64) :
    k0_pay1 (F := Ideal) x0 x1 (ix2 p q) = mm (c2 x0) (c2 x1) p q := by
  unfold k0_pay1
  exact matmul_plain_apply _ x0 x1 p q

/-- The hidden layer over a block of 400 rows, at (r, j): max (A · XW + b₁, 0). -/
theorem hid_block (x0 : Vec Ideal S400x10000 .f32) (x1 : Vec Ideal S10000x64 .f32) (x2 : Vec Ideal S1x64 .f32)
    (r : Fin 400) (j : Fin 64) :
    maximumf (addf (matmul (φ₁ := .f32) (φ₂ := .f32) dot_S400x10000_S10000x64_S400x64_1_0_0_1_n_n none x0 x1 (constant S400x64 .f32 0x00000000#32))
        (broadcastTo S400x64 x2 broadcasts_S1x64_S400x64)) (broadcast S400x64 (Scalar.ofBits (F := Ideal) .f32 0x00000000#32)) (ix2 r j)
      = hidR (c2 x0) (c2 x1) (row1 x2) r j := by
  rw [maximumf_apply, addf_apply, broadcast_apply]
  have e : FloatOps.matmul (F := Ideal) (φ₁ := .f32) (φ₂ := .f32) dot_S400x10000_S10000x64_S400x64_1_0_0_1_n_n none x0 x1
      (constant S400x64 .f32 0x00000000#32) (ix2 r j) = mm (c2 x0) (c2 x1) r j := matmul_plain_apply _ x0 x1 r j
  show max (FloatOps.matmul (F := Ideal) (φ₁ := .f32) (φ₂ := .f32) _ none x0 x1 _ (ix2 r j) + _) (Ideal.ofBits .f32 0x00000000#32) = _
  rw [e, broadcastTo_1b_ab_apply x2 _ r j, Ideal.ofBits_zero_f32]
  rfl

/-- The second body's value: (the hidden layer over the block) · (the two heads side by side). -/
theorem pay_hw (x0 : Vec Ideal S400x10000 .f32) (x1 : Vec Ideal S10000x64 .f32) (x2 : Vec Ideal S1x64 .f32)
    (x3 : Vec Ideal S64x18 .f32) (r : Fin 400) (k : Fin 18) :
    k1_pay1 (F := Ideal) x0 x1 x2 x3 (ix2 r k) = mm (hidR (c2 x0) (c2 x1) (row1 x2)) (c2 x3) r k := by
  unfold k1_pay1
  simp only [shapeCast_self]
  refine (matmul_plain_apply _ _ x3 r k).trans ?_
  unfold mm
  refine Finset.sum_congr rfl fun j _ => ?_
  exact congrArg (· * x3 (ix2 j k)) (hid_block x0 x1 x2 r j)

/-- The third body's logits over the block: A · HW + the bias row. -/
theorem pay_y (x0 : Vec Ideal S400x10000 .f32) (x1 : Vec Ideal S10000x18 .f32) (x2 : Vec Ideal S1x18 .f32)
    (r : Fin 400) (k : Fin 18) :
    k2_pay1 (F := Ideal) x0 x1 x2 (ix2 r k) = addRow (mm (c2 x0) (c2 x1)) (row1 x2) r k := by
  unfold k2_pay1
  simp only [shapeCast_self]
  rw [addf_apply]
  have e : FloatOps.matmul (F := Ideal) (φ₁ := .f32) (φ₂ := .f32) dot_S400x10000_S10000x18_S400x18_1_0_0_1_n_n none x0 x1
      (constant S400x18 .f32 0x00000000#32) (ix2 r k) = mm (c2 x0) (c2 x1) r k := matmul_plain_apply _ x0 x1 r k
  show FloatOps.matmul (F := Ideal) (φ₁ := .f32) (φ₂ := .f32) _ none x0 x1 _ (ix2 r k) + _ = _
  rw [e, broadcastTo_1b_ab_apply x2 _ r k]
  rfl

end Cert.KernelIdeal.PayMm

end
-- ==== Proof.Region0.lean ====
/-
  What the first launched region leaves in its output array.

  The region has one grid point; it sees the whole of X (n × 128) and of W₁ (128 × 64) and writes the whole of the
  output (n × 64): entry (p, q) is ∑ₖ X(p, k) · W₁(k, q). So the output array ends at the matrix product X · W₁.
-/
import proofs.«106332_g43568148250684_cont_sun_m_331_2_alg».proof.Proof.Gen.KernelIdeal.Frame
import proofs.«106332_g43568148250684_cont_sun_m_331_2_alg».proof.Proof.PayMm
import Idealize.ShloMosaic.Lib.Pipeline.Value
import Idealize.ShloMosaic.Lib.ValueIdx

set_option maxRecDepth 16384

noncomputable section

namespace Cert.KernelIdeal.Reg0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product X · W₁ as one function of the two arrays the region reads. -/
def xwOf (x : S10000x128.Idx → EReal) (w1 : S128x64.Idx → EReal) : S10000x64.Idx → EReal :=
  fun i => mm (c2 x) (c2 w1) (i 0) (i 1)

/-- Every window's block index is 0 on both axes: each block is its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  fun _ => ⟨rfl, rfl, rfl, rfl, rfl, rfl⟩

theorem blk0 (c : Dev nD) (t : Fin cfg0.N) : iblk0 V c 0 t = (V c main_arg0 : S10000x128.Idx → EReal) := by
  obtain ⟨e0, e1, -⟩ := idx_facts t
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk1 (c : Dev nD) (t : Fin cfg0.N) : iblk0 V c 1 t = (V c main_arg2 : S128x64.Idx → EReal) := by
  obtain ⟨-, -, e0, e1, -⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The output block's element (p, q) sits at (p, q) of the array. -/
theorem emb2 (t : Fin cfg0.N) (p : Fin 10000) (q : Fin 64) :
    (((cfg0.win 2).blk t).view.emb (ix2 p q) : S10000x64.Idx) = ix2 p q := by
  obtain ⟨-, -, -, -, e0, e1⟩ := idx_facts t
  funext a; apply Fin.ext
  match a with
  | ⟨0, _⟩ => show win0_2.index t (0 : Fin 2) * 10000 + 1 * p.val = p.val; omega
  | ⟨1, _⟩ => show win0_2.index t (1 : Fin 2) * 64 + 1 * q.val = q.val; omega

/-- What the one point writes back is the whole of the one function. -/
theorem flushed_eq (c : Dev nD) (t : Fin cfg0.N) :
    (dat0 V c).flushed 2 t = ((cfg0.win 2).blk t).view.read (Elt Ideal) (xwOf (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [blk0 V c t, blk1 V c t]
  funext j
  obtain ⟨p, q, rfl⟩ : ∃ (p : Fin 10000) (q : Fin 64), j = ix2 p q := ⟨j 0, j 1, eq_ix2 j⟩
  show k0_pay1 (F := Ideal) (V c main_arg0) (V c main_arg2) (ix2 p q)
    = xwOf (V c main_arg0) (V c main_arg2) (((cfg0.win 2).blk t).view.emb (ix2 p q))
  rw [emb2 t p q]
  exact PayMm.pay_xw _ _ p q

theorem mem_blk (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- The one block is the whole array. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨-, -, -, -, e0, e1⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 64 ≤ (i 1).val ∧ (i 1).val < win0_2.index t0_0 (1 : Fin 2) * 64 + 64; omega

/-- The output array after the region: X · W₁ of the arrays as the region found them. -/
theorem value (c : Dev nD) : (dat0 V c).arrAt 2 cfg0.N = xwOf (V c main_arg0) (V c main_arg2) :=
  (dat0 V c).arrAt_eq_of_cover 2 _ (fun t _ => flushed_eq V c t) cover

end Cert.KernelIdeal.Reg0

end
-- ==== Proof.HeadsLaws.lean ====
/-
  Laws of the matrix product of the specification used to read the kernel's blocks.
  A row of a product depends only on that row of the left factor, so a block of rows of the adjacency matrix
  gives the corresponding rows of every product, bias, maximum and second product built on it.
  A column of a product depends only on that column of the right factor, so with the two heads' weights side
  by side (and the two biases end to end) column k of the pair is column k of the first head and column 16 + k
  is column k of the second.
-/
import proofs.«106332_g43568148250684_cont_sun_m_331_2_alg».proof.Proof.Heads

noncomputable section

namespace Cert.Gcn

/-! ### Rows -/

theorem mm_row {a a' b c : ℕ} (A : Fin a → Fin b → EReal) (A' : Fin a' → Fin b → EReal) (B : Fin b → Fin c → EReal)
    (p : Fin a) (r : Fin a') (h : ∀ k, A' r k = A p k) (q : Fin c) : mm A' B r q = mm A B p q := by
  unfold mm
  exact Finset.sum_congr rfl fun k _ => by rw [h k]

theorem addRow_mm_row {a a' b c : ℕ} (A : Fin a → Fin b → EReal) (A' : Fin a' → Fin b → EReal) (B : Fin b → Fin c → EReal)
    (bias : Fin c → EReal) (p : Fin a) (r : Fin a') (h : ∀ k, A' r k = A p k) (q : Fin c) :
    addRow (mm A' B) bias r q = addRow (mm A B) bias p q := by
  unfold addRow
  rw [mm_row A A' B p r h q]

theorem hidR_row {a a' n d : ℕ} (A : Fin a → Fin n → EReal) (A' : Fin a' → Fin n → EReal) (XW : Fin n → Fin d → EReal)
    (b1 : Fin d → EReal) (p : Fin a) (r : Fin a') (h : ∀ k, A' r k = A p k) (q : Fin d) :
    hidR A' XW b1 r q = hidR A XW b1 p q := by
  unfold hidR
  rw [addRow_mm_row A A' XW b1 p r h q]

theorem mm_hidR_row {a a' n d c : ℕ} (A : Fin a → Fin n → EReal) (A' : Fin a' → Fin n → EReal) (XW : Fin n → Fin d → EReal)
    (b1 : Fin d → EReal) (W : Fin d → Fin c → EReal) (p : Fin a) (r : Fin a') (h : ∀ k, A' r k = A p k) (q : Fin c) :
    mm (hidR A' XW b1) W r q = mm (hidR A XW b1) W p q :=
  mm_row (hidR A XW b1) (hidR A' XW b1) W p r (fun k => hidR_row A A' XW b1 p r h k) q

theorem hid_eq_hidR {n d : ℕ} (A : Fin n → Fin n → EReal) (XW : Fin n → Fin d → EReal) (b1 : Fin d → EReal) :
    hid A XW b1 = hidR A XW b1 := by
  funext p q
  rfl

/-! ### Columns -/

theorem mm_col {a b c c' : ℕ} (A : Fin a → Fin b → EReal) (B : Fin b → Fin c → EReal) (B' : Fin b → Fin c' → EReal)
    (q : Fin c) (q' : Fin c') (h : ∀ k, B' k q' = B k q) (p : Fin a) : mm A B' p q' = mm A B p q := by
  unfold mm
  exact Finset.sum_congr rfl fun k _ => by rw [h k]

theorem catCols_lo {d : ℕ} (w2 : Fin d → Fin 16 → EReal) (w3 : Fin d → Fin 2 → EReal) (j : Fin d) (k : Fin 16) :
    catCols w2 w3 j (lo k) = w2 j k := by
  unfold catCols
  rw [dif_pos (show (lo k).val < 16 from k.isLt)]
  rfl

theorem catCols_hi {d : ℕ} (w2 : Fin d → Fin 16 → EReal) (w3 : Fin d → Fin 2 → EReal) (j : Fin d) (k : Fin 2) :
    catCols w2 w3 j (hi k) = w3 j k := by
  unfold catCols
  rw [dif_neg (show ¬ (hi k).val < 16 by show ¬ (16 + k.val < 16); omega)]
  exact congrArg (w3 j) (Fin.ext (by show 16 + k.val - 16 = k.val; omega))

theorem catVec_lo (b2 : Fin 16 → EReal) (b3 : Fin 2 → EReal) (k : Fin 16) : catVec b2 b3 (lo k) = b2 k := by
  unfold catVec
  rw [dif_pos (show (lo k).val < 16 from k.isLt)]
  rfl

theorem catVec_hi (b2 : Fin 16 → EReal) (b3 : Fin 2 → EReal) (k : Fin 2) : catVec b2 b3 (hi k) = b3 k := by
  unfold catVec
  rw [dif_neg (show ¬ (hi k).val < 16 by show ¬ (16 + k.val < 16); omega)]
  exact congrArg b3 (Fin.ext (by show 16 + k.val - 16 = k.val; omega))

theorem logits_cat_lo {n d : ℕ} (A : Fin n → Fin n → EReal) (H : Fin n → Fin d → EReal) (w2 : Fin d → Fin 16 → EReal)
    (w3 : Fin d → Fin 2 → EReal) (b2 : Fin 16 → EReal) (b3 : Fin 2 → EReal) (p : Fin n) (k : Fin 16) :
    addRow (mm A (mm H (catCols w2 w3))) (catVec b2 b3) p (lo k) = logits A H w2 b2 p k := by
  unfold logits addRow
  rw [catVec_lo, mm_col A (mm H w2) (mm H (catCols w2 w3)) k (lo k)
    (fun j => mm_col H w2 (catCols w2 w3) k (lo k) (fun i => catCols_lo w2 w3 i k) j) p]

theorem logits_cat_hi {n d : ℕ} (A : Fin n → Fin n → EReal) (H : Fin n → Fin d → EReal) (w2 : Fin d → Fin 16 → EReal)
    (w3 : Fin d → Fin 2 → EReal) (b2 : Fin 16 → EReal) (b3 : Fin 2 → EReal) (p : Fin n) (k : Fin 2) :
    addRow (mm A (mm H (catCols w2 w3))) (catVec b2 b3) p (hi k) = logits A H w3 b3 p k := by
  unfold logits addRow
  rw [catVec_hi, mm_col A (mm H w3) (mm H (catCols w2 w3)) k (hi k)
    (fun j => mm_col H w3 (catCols w2 w3) k (hi k) (fun i => catCols_hi w2 w3 i k) j) p]

end Cert.Gcn

end
-- ==== Proof.Region1.lean ====
/-
  What the second launched region leaves in its output array.

  The region runs over 25 grid points; point t sees rows 400·t … 400·t + 399 of the adjacency matrix A, and the whole
  of XW (n × 64), of the bias row b₁ (1 × 64) and of the paired heads W (64 × 18), and writes rows 400·t … 400·t + 399
  of the output. Entry (r, k) of what it writes is ∑ⱼ max (∑ₙ A(400·t + r, n) · XW(n, j) + b₁(j), 0) · W(j, k): it
  depends on the point only through the rows of A it sees, so block t of the output is block t of ONE function of the
  arrays, H · W with H = max (A · XW + b₁, 0); and the 25 blocks of 400 rows tile the 10000 rows, so the whole
  output array ends at that function.
-/
import proofs.«106332_g43568148250684_cont_sun_m_331_2_alg».proof.Proof.Gen.KernelIdeal.Frame
import proofs.«106332_g43568148250684_cont_sun_m_331_2_alg».proof.Proof.PayMm
import proofs.«106332_g43568148250684_cont_sun_m_331_2_alg».proof.Proof.HeadsLaws
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The hidden layer times the paired heads, as one function of the four arrays the region reads. -/
def hwOf (adj : S10000x10000.Idx → EReal) (xw : S10000x64.Idx → EReal) (b1 : S1x64.Idx → EReal) (w : S64x18.Idx → EReal) :
    S10000x18.Idx → EReal :=
  fun i => mm (hidR (c2 adj) (c2 xw) (row1 b1)) (c2 w) (i 0) (i 1)

/-- The index maps over the grid: the adjacency window and the output window move together along the rows and stay
    at column block 0; the three resident windows stay at block 0; every row block is some point's. -/
theorem idx_facts : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 :=
  (by decide +kernel : ∀ t : Fin grid1.N, _)

theorem idx_onto : ∀ q0 : Fin 25, ∃ t : Fin cfg1.N, win1_4.index t = ![q0.val, 0] :=
  (by decide +kernel : ∀ q0 : Fin 25, ∃ t : Fin grid1.N, win1_4.index t = ![q0.val, 0])

/-- A resident window's block is the whole array. -/
theorem blk1 (c : Dev nD) (t : Fin cfg1.N) : iblk1 V c 1 t = (V c main_v4 : S10000x64.Idx → EReal) := by
  obtain ⟨-, -, -, e0, e1, -⟩ := idx_facts t
  funext y
  show V c main_v4 (((cfg1.win 1).blk t).view.emb y) = V c main_v4 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

theorem blk2 (c : Dev nD) (t : Fin cfg1.N) : iblk1 V c 2 t = (V c main_v3 : S1x64.Idx → EReal) := by
  obtain ⟨-, -, -, -, -, e0, e1, -⟩ := idx_facts t
  funext y
  show V c main_v3 (((cfg1.win 2).blk t).view.emb y) = V c main_v3 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem blk3 (c : Dev nD) (t : Fin cfg1.N) : iblk1 V c 3 t = (V c main_v0 : S64x18.Idx → EReal) := by
  obtain ⟨-, -, -, -, -, -, -, e0, e1, -⟩ := idx_facts t
  funext y
  show V c main_v0 (((cfg1.win 3).blk t).view.emb y) = V c main_v0 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 18 + 1 * (y 1).val = (y 1).val; omega

/-- Row r of the adjacency block at point t is the adjacency matrix's row at the output block's row r. -/
theorem blk0_row (c : Dev nD) (t : Fin cfg1.N) (r : Fin 400) (k : Fin 18) (n : Fin 10000) :
    (iblk1 V c 0 t : S400x10000.Idx → EReal) (ix2 r n)
      = (V c main_arg1 : S10000x10000.Idx → EReal) (ix2 ((((cfg1.win 4).blk t).view.emb (ix2 r k)) 0) n) := by
  obtain ⟨e0, e1, e2, -⟩ := idx_facts t
  show V c main_arg1 (((cfg1.win 0).blk t).view.emb (ix2 r n)) = _
  refine congrArg _ (funext fun a => Fin.ext ?_)
  match a with
  | ⟨0, _⟩ => show win1_0.index t (0 : Fin 2) * 400 + 1 * r.val = win1_4.index t (0 : Fin 2) * 400 + 1 * r.val; omega
  | ⟨1, _⟩ => show win1_0.index t (1 : Fin 2) * 10000 + 1 * n.val = n.val; omega

/-- The output block's column coordinate is the column itself. -/
theorem emb4_col (t : Fin cfg1.N) (r : Fin 400) (k : Fin 18) :
    ((((cfg1.win 4).blk t).view.emb (ix2 r k)) 1 : Fin 18) = k := by
  obtain ⟨-, -, e2, -⟩ := idx_facts t
  apply Fin.ext
  show win1_4.index t (1 : Fin 2) * 18 + 1 * k.val = k.val; omega

/-- What point t writes back is block t of the one function. -/
theorem flushed_eq (c : Dev nD) (t : Fin cfg1.N) :
    (dat1 V c).flushed 4 t
      = ((cfg1.win 4).blk t).view.read (Elt Ideal) (hwOf (V c main_arg1) (V c main_v4) (V c main_v3) (V c main_v0)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x64) hz, View.ld_unit_zero (S := S1x64) hz,
    View.ld_unit_zero (S := S64x18) hz]
  rw [blk1 V c t, blk2 V c t, blk3 V c t]
  funext j
  obtain ⟨r, k, rfl⟩ : ∃ (r : Fin 400) (k : Fin 18), j = ix2 r k := ⟨j 0, j 1, eq_ix2 j⟩
  show k1_pay1 (F := Ideal) (iblk1 V c 0 t) (V c main_v4) (V c main_v3) (V c main_v0) (ix2 r k)
    = hwOf (V c main_arg1) (V c main_v4) (V c main_v3) (V c main_v0) (((cfg1.win 4).blk t).view.emb (ix2 r k))
  refine (PayMm.pay_hw _ _ _ _ r k).trans ?_
  unfold hwOf
  rw [emb4_col t r k]
  exact mm_hidR_row _ _ _ _ _ _ r (fun n => blk0_row V c t r k n) k

/-- An index of the array is in point t's block iff each coordinate is in the block's range on its axis. -/
theorem mem_blk (t : Fin cfg1.N) (i : S10000x18.Idx) :
    i ∈ ((cfg1.win 4).blk t).view.set ↔ ∀ a : Fin 2, win1_4.index t a * S400x18.size a ≤ (i a).val ∧ (i a).val < win1_4.index t a * S400x18.size a + S400x18.size a := by
  show i ∈ ((View.whole main_v5).slice (win1_4.rect t)).set ↔ _
  rw [View.set_slice_whole, Rect.mem_set_unit]
  exact Iff.rfl

/-- The 25 blocks of 400 rows tile the array: the point that covers row p is the one at row block p / 400. -/
theorem cover (i : S10000x18.Idx) : ∃ t : Fin cfg1.N, (cfg1.win 4).flush t = true ∧ i ∈ ((cfg1.win 4).blk t).view.set := by
  have hi0 : (i 0).val < 10000 := (i 0).isLt
  have hi1 : (i 1).val < 18 := (i 1).isLt
  obtain ⟨t, ht⟩ := idx_onto ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 18 ≤ (i 1).val ∧ (i 1).val < win1_4.index t (1 : Fin 2) * 18 + 18; omega

/-- The output array after the region: the hidden layer times the paired heads, of the arrays as the region found them. -/
theorem value (c : Dev nD) :
    (dat1 V c).arrAt 4 cfg1.N = hwOf (V c main_arg1) (V c main_v4) (V c main_v3) (V c main_v0) :=
  (dat1 V c).arrAt_eq_of_cover 4 _ (fun t _ => flushed_eq V c t) cover

end Cert.KernelIdeal.Reg1

end
-- ==== Proof.PaySm.lean ====
/-
  The softmax tails of the third body, read at an entry.

  From the 400 × 18 block Y of logits the body cuts the first 16 columns and the last 2; on each cut Z it takes the
  row maximum m (from −∞), subtracts it, exponentiates, sums along the row to S, and stores (Z − m) − log S: the
  log-softmax of each row of the cut. Read at row r and column k that is the log-softmax of the row
  k' ↦ Y (r, k') resp. k' ↦ Y (r, 16 + k'), at k. The last stored value is the exponential of column 15 of the
  first log-softmax.
-/
import proofs.«106332_g43568148250684_cont_sun_m_331_2_alg».proof.Proof.Gen.KernelIdeal.Skeleton
import proofs.«106332_g43568148250684_cont_sun_m_331_2_alg».proof.Proof.Heads
import Idealize.ShloMosaic.Lib.ValueIdx
import Idealize.ShloMosaic.Lib.Pipeline.Value
import Idealize.ShloMosaic.Lib.ValueLayout
import Idealize.ShloMosaic.PureOps.Ideal.Laws

namespace Cert.KernelIdeal.PaySm

open Cert.KernelIdeal Cert.KernelIdeal.Gen Cert.Gcn Idealize.ShloMosaic Idealize.ShloMosaic.ValueIdx

section Block
variable {c : ℕ}

/-- A column of 400 entries broadcast across c columns reads, at (r, k), entry r of the column. -/
theorem bcast_col (v : FVec Ideal S400x1 .f32) (hb : S400x1.Broadcasts ⟨2, ![400, c]⟩) (r : Fin 400) (k : Fin c) :
    broadcastTo ⟨2, ![400, c]⟩ v hb (ix2 r k) = v (ix2 r (0 : Fin 1)) := by
  refine broadcastTo_apply v hb (ix2 r k) (ix2 r (0 : Fin 1)) fun ax => ?_
  match ax with
  | ⟨0, _⟩ => rfl
  | ⟨1, _⟩ => rfl

/-- A vector of 400 entries cast to one column reads, at (r, 0), entry r. -/
theorem cast_col (w : FVec Ideal S400 .f32) (hsc : S400.ShapeCasts S400x1) (r : Fin 400) :
    shapeCast S400x1 w hsc (ix2 r (0 : Fin 1)) = w (ix1 r) :=
  shapeCast_apply w hsc _ _ (by
    rw [Shape.rowMajor_val_two, Shape.rowMajor_val_one]
    show r.val = r.val * 1 + 0
    omega)

/-- The reduced index r with column k put back is (r, k). -/
theorem lift_row (hr : (⟨2, ![400, c]⟩ : Shape).Reduces [1] S400) (r : Fin 400)
    (k : Fin ((⟨2, ![400, c]⟩ : Shape).size 1)) : hr.lift (ix1 r) k = ix2 r (⟨k.val, k.isLt⟩ : Fin c) := by
  funext a; apply Fin.ext
  fin_cases a <;> rfl

/-- The maximum along the rows from −∞, at row r, is the row's maximum. -/
theorem max_row (Z : FVec Ideal ⟨2, ![400, c]⟩ .f32) (hr : (⟨2, ![400, c]⟩ : Shape).Reduces [1] S400)
    (hφ : FKind.Formats .f32) (hacc : (0xFF800000#32 : BitVec 32) = FKind.maximumf.neutral .f32 hφ) (r : Fin 400) :
    multiReduction .maximumf [1] S400 Z 0xFF800000#32 hr hφ hacc (ix1 r) = rowMax (fun k' : Fin c => Z (ix2 r k')) := by
  refine (Ideal.multiReduction_maximumf_single Z _ hr hφ hacc (ix1 r)).trans ?_
  have hf : (Z ∘ hr.lift (ix1 r)) = fun k' : Fin c => Z (ix2 r k') := funext fun k' => congrArg Z (lift_row hr r k')
  exact congrArg (fun f => Finset.fold max (Ideal.ofBits .f32 0xFF800000#32) f (Finset.univ : Finset (Fin c))) hf

/-- The sum along the rows, at row r, is the row's sum. -/
theorem sum_row (Z : FVec Ideal ⟨2, ![400, c]⟩ .f32) (hr : (⟨2, ![400, c]⟩ : Shape).Reduces [1] S400)
    (hφ : FKind.Formats .f32) (hacc : (0x00000000#32 : BitVec 32) = FKind.add.neutral .f32 hφ) (r : Fin 400) :
    multiReduction .add [1] S400 Z 0x00000000#32 hr hφ hacc (ix1 r) = ∑ k' : Fin c, Z (ix2 r k') := by
  refine (Ideal.multiReduction_add_single Z _ hr hφ hacc (ix1 r)).trans ?_
  exact Finset.sum_congr rfl fun k' _ => congrArg Z (lift_row hr r k')

/-- The chain of operations on a block Z of c columns — row maximum, subtract, exponentiate, row sum, logarithm,
    subtract — read at (r, k), is the log-softmax of row r of Z at k. -/
theorem lsm_block (Z : FVec Ideal ⟨2, ![400, c]⟩ .f32) (hr : (⟨2, ![400, c]⟩ : Shape).Reduces [1] S400)
    (hsc : S400.ShapeCasts S400x1) (hb : S400x1.Broadcasts ⟨2, ![400, c]⟩)
    (hφ₁ : FKind.Formats .f32) (hacc₁ : (0xFF800000#32 : BitVec 32) = FKind.maximumf.neutral .f32 hφ₁)
    (hφ₂ : FKind.Formats .f32) (hacc₂ : (0x00000000#32 : BitVec 32) = FKind.add.neutral .f32 hφ₂)
    (r : Fin 400) (k : Fin c) :
    subf
      (subf Z (broadcastTo ⟨2, ![400, c]⟩ (shapeCast S400x1 (multiReduction .maximumf [1] S400 Z 0xFF800000#32 hr hφ₁ hacc₁) hsc) hb))
      (broadcastTo ⟨2, ![400, c]⟩
        (log (shapeCast S400x1
          (multiReduction .add [1] S400
            (exp (subf Z (broadcastTo ⟨2, ![400, c]⟩
              (shapeCast S400x1 (multiReduction .maximumf [1] S400 Z 0xFF800000#32 hr hφ₁ hacc₁) hsc) hb)))
            0x00000000#32 hr hφ₂ hacc₂) hsc)) hb) (ix2 r k)
      = lsm (fun k' : Fin c => Z (ix2 r k')) k := by
  have hm : ∀ k' : Fin c,
      broadcastTo ⟨2, ![400, c]⟩ (shapeCast S400x1 (multiReduction .maximumf [1] S400 Z 0xFF800000#32 hr hφ₁ hacc₁) hsc) hb (ix2 r k')
        = rowMax (fun k' : Fin c => Z (ix2 r k')) := fun k' =>
    (bcast_col _ hb r k').trans ((cast_col _ hsc r).trans (max_row Z hr hφ₁ hacc₁ r))
  rw [subf_apply, subf_apply, hm k, bcast_col _ hb r k]
  show _ - Ideal.log (shapeCast S400x1 _ hsc (ix2 r (0 : Fin 1))) = _
  rw [cast_col _ hsc r, sum_row _ hr hφ₂ hacc₂ r]
  unfold lsm expSum
  congr 2
  refine Finset.sum_congr rfl fun k' _ => ?_
  show Ideal.exp (subf Z _ (ix2 r k')) = _
  rw [subf_apply, hm k']

end Block

variable [Cert.KernelIdeal.Facts]

theorem pay_lsm16 (x0 : Vec Ideal S400x10000 .f32) (x1 : Vec Ideal S10000x18 .f32) (x2 : Vec Ideal S1x18 .f32)
    (r : Fin 400) (k : Fin 16) :
    k2_pay2 (F := Ideal) x0 x1 x2 (ix2 r k) = lsm (fun k' : Fin 16 => k2_pay1 (F := Ideal) x0 x1 x2 (ix2 r (lo k'))) k := by
  have key := lsm_block (c := 16) (extractStridedSlice S400x16 ![0, 0] (k2_pay1 (F := Ideal) x0 x1 x2) Facts₀.slices_S400x18_o0_0_S400x16)
    Facts₀.reduces_S400x16_S400 Facts₀.shapeCasts_S400_S400x1 Facts₀.broadcasts_S400x1_S400x16 (.inl rfl) rfl (.inl rfl) rfl r k
  unfold k2_pay2
  dsimp only
  refine key.trans ?_
  exact congrArg (fun y => lsm y k) (funext fun k' =>
    slice2_axis1_apply 0 (k2_pay1 (F := Ideal) x0 x1 x2) Facts₀.slices_S400x18_o0_0_S400x16 r k' (lo k') (Nat.zero_add _).symm)

theorem pay_lsm2 (x0 : Vec Ideal S400x10000 .f32) (x1 : Vec Ideal S10000x18 .f32) (x2 : Vec Ideal S1x18 .f32)
    (r : Fin 400) (k : Fin 2) :
    k2_pay3 (F := Ideal) x0 x1 x2 (ix2 r k) = lsm (fun k' : Fin 2 => k2_pay1 (F := Ideal) x0 x1 x2 (ix2 r (hi k'))) k := by
  have key := lsm_block (c := 2) (extractStridedSlice S400x2 ![0, 16] (k2_pay1 (F := Ideal) x0 x1 x2) Facts₀.slices_S400x18_o0_16_S400x2)
    Facts₀.reduces_S400x2_S400 Facts₀.shapeCasts_S400_S400x1 Facts₀.broadcasts_S400x1_S400x2 (.inl rfl) rfl (.inl rfl) rfl r k
  unfold k2_pay3
  dsimp only
  refine key.trans ?_
  exact congrArg (fun y => lsm y k) (funext fun k' =>
    slice2_axis1_apply 16 (k2_pay1 (F := Ideal) x0 x1 x2) Facts₀.slices_S400x18_o0_16_S400x2 r k' (hi k') rfl)

theorem pay_exp15 (x0 : Vec Ideal S400x10000 .f32) (x1 : Vec Ideal S10000x18 .f32) (x2 : Vec Ideal S1x18 .f32)
    (r : Fin 400) :
    k2_pay4 (F := Ideal) x0 x1 x2 (ix2 r (0 : Fin 1)) = Ideal.exp (k2_pay2 (F := Ideal) x0 x1 x2 (ix2 r (15 : Fin 16))) := by
  unfold k2_pay4
  show Ideal.exp (extractStridedSlice S400x1 ![0, 15] (k2_pay2 (F := Ideal) x0 x1 x2) Facts₀.slices_S400x16_o0_15_S400x1 (ix2 r (0 : Fin 1))) = _
  exact congrArg Ideal.exp
    (slice2_axis1_apply 15 (k2_pay2 (F := Ideal) x0 x1 x2) Facts₀.slices_S400x16_o0_15_S400x1 r (0 : Fin 1) (15 : Fin 16) rfl)

end Cert.KernelIdeal.PaySm
-- ==== Proof.Region2.lean ====
/-
  What the third launched region leaves in its three output arrays.

  The region runs over 25 grid points; point t sees rows 400·t … 400·t + 399 of the adjacency matrix A and the whole of
  HW (n × 18) and of the bias row b (1 × 18). Row r of its block of logits is y = A(400·t + r, ·) · HW + b, 18 numbers:
  the first 16 are one head's logits, the last 2 the other's. It writes the log-softmax of the first 16 (rows of the
  n × 16 output), the log-softmax of the last 2 (rows of the n × 2 output), and the exponential of entry 15 of the
  first (the n × 1 output). Each depends on the point only through the rows of A it sees, so block t of each output is
  block t of ONE function of the arrays, and the 25 blocks of 400 rows tile each output.
-/
import proofs.«106332_g43568148250684_cont_sun_m_331_2_alg».proof.Proof.Gen.KernelIdeal.Frame
import proofs.«106332_g43568148250684_cont_sun_m_331_2_alg».proof.Proof.PayMm
import proofs.«106332_g43568148250684_cont_sun_m_331_2_alg».proof.Proof.PaySm
import proofs.«106332_g43568148250684_cont_sun_m_331_2_alg».proof.Proof.HeadsLaws
import Idealize.ShloMosaic.Lib.Pipeline.Value
import Idealize.ShloMosaic.Lib.ValueIdx

set_option maxRecDepth 16384

noncomputable section

namespace Cert.KernelIdeal.Reg2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The 18 logits of row p: A · HW + b. -/
def yOf (adj : S10000x10000.Idx → EReal) (hw : S10000x18.Idx → EReal) (b : S1x18.Idx → EReal) (p : Fin 10000) (k : Fin 18) : EReal :=
  addRow (mm (c2 adj) (c2 hw)) (row1 b) p k

/-- The first head's log-softmax. -/
def out1Of (adj : S10000x10000.Idx → EReal) (hw : S10000x18.Idx → EReal) (b : S1x18.Idx → EReal) : S10000x16.Idx → EReal :=
  fun i => lsm (fun k' : Fin 16 => yOf adj hw b (i 0) (lo k')) (i 1)

/-- The second head's log-softmax. -/
def out2Of (adj : S10000x10000.Idx → EReal) (hw : S10000x18.Idx → EReal) (b : S1x18.Idx → EReal) : S10000x2.Idx → EReal :=
  fun i => lsm (fun k' : Fin 2 => yOf adj hw b (i 0) (hi k')) (i 1)

/-- The exponential of the first head's last log-softmax entry. -/
def out3Of (adj : S10000x10000.Idx → EReal) (hw : S10000x18.Idx → EReal) (b : S1x18.Idx → EReal) : S10000x1.Idx → EReal :=
  fun i => Ideal.exp (lsm (fun k' : Fin 16 => yOf adj hw b (i 0) (lo k')) (15 : Fin 16))

/-- The index maps over the grid: the adjacency window and the three output windows move together along the rows and
    stay at column block 0; the two resident windows stay at block 0. -/
theorem idx_facts : ∀ t : Fin cfg2.N, win2_0.index t (0 : Fin 2) = win2_3.index t (0 : Fin 2)
    ∧ win2_4.index t (0 : Fin 2) = win2_3.index t (0 : Fin 2) ∧ win2_5.index t (0 : Fin 2) = win2_3.index t (0 : Fin 2)
    ∧ win2_0.index t (1 : Fin 2) = 0 ∧ win2_3.index t (1 : Fin 2) = 0 ∧ win2_4.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 24 :=
  (by decide +kernel : ∀ t : Fin grid2.N, _)

theorem idx_onto3 : ∀ q0 : Fin 25, ∃ t : Fin cfg2.N, win2_3.index t = ![q0.val, 0] :=
  (by decide +kernel : ∀ q0 : Fin 25, ∃ t : Fin grid2.N, win2_3.index t = ![q0.val, 0])
theorem idx_onto4 : ∀ q0 : Fin 25, ∃ t : Fin cfg2.N, win2_4.index t = ![q0.val, 0] :=
  (by decide +kernel : ∀ q0 : Fin 25, ∃ t : Fin grid2.N, win2_4.index t = ![q0.val, 0])
theorem idx_onto5 : ∀ q0 : Fin 25, ∃ t : Fin cfg2.N, win2_5.index t = ![q0.val, 0] :=
  (by decide +kernel : ∀ q0 : Fin 25, ∃ t : Fin grid2.N, win2_5.index t = ![q0.val, 0])

/-- A resident window's block is the whole array. -/
theorem blk1 (c : Dev nD) (t : Fin cfg2.N) : iblk2 V c 1 t = (V c main_v5 : S10000x18.Idx → EReal) := by
  obtain ⟨-, -, -, -, -, -, -, e0, e1, -⟩ := idx_facts t
  funext y
  show V c main_v5 (((cfg2.win 1).blk t).view.emb y) = V c main_v5 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 18 + 1 * (y 1).val = (y 1).val; omega

theorem blk2 (c : Dev nD) (t : Fin cfg2.N) : iblk2 V c 2 t = (V c main_v2 : S1x18.Idx → EReal) := by
  obtain ⟨-, -, -, -, -, -, -, -, -, e0, e1, -⟩ := idx_facts t
  funext y
  show V c main_v2 (((cfg2.win 2).blk t).view.emb y) = V c main_v2 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 18 + 1 * (y 1).val = (y 1).val; omega

/-- Row r of the adjacency block at point t is the adjacency matrix's row at each output block's row r. -/
theorem blk0_row3 (c : Dev nD) (t : Fin cfg2.N) (r : Fin 400) (k : Fin 16) (n : Fin 10000) :
    (iblk2 V c 0 t : S400x10000.Idx → EReal) (ix2 r n)
      = (V c main_arg1 : S10000x10000.Idx → EReal) (ix2 ((((cfg2.win 3).blk t).view.emb (ix2 r k)) 0) n) := by
  obtain ⟨e0, e1, e2, e3, -⟩ := idx_facts t
  show V c main_arg1 (((cfg2.win 0).blk t).view.emb (ix2 r n)) = _
  refine congrArg _ (funext fun a => Fin.ext ?_)
  match a with
  | ⟨0, _⟩ => show win2_0.index t (0 : Fin 2) * 400 + 1 * r.val = win2_3.index t (0 : Fin 2) * 400 + 1 * r.val; omega
  | ⟨1, _⟩ => show win2_0.index t (1 : Fin 2) * 10000 + 1 * n.val = n.val; omega

theorem blk0_row4 (c : Dev nD) (t : Fin cfg2.N) (r : Fin 400) (k : Fin 2) (n : Fin 10000) :
    (iblk2 V c 0 t : S400x10000.Idx → EReal) (ix2 r n)
      = (V c main_arg1 : S10000x10000.Idx → EReal) (ix2 ((((cfg2.win 4).blk t).view.emb (ix2 r k)) 0) n) := by
  obtain ⟨e0, e1, e2, e3, -⟩ := idx_facts t
  show V c main_arg1 (((cfg2.win 0).blk t).view.emb (ix2 r n)) = _
  refine congrArg _ (funext fun a => Fin.ext ?_)
  match a with
  | ⟨0, _⟩ => show win2_0.index t (0 : Fin 2) * 400 + 1 * r.val = win2_4.index t (0 : Fin 2) * 400 + 1 * r.val; omega
  | ⟨1, _⟩ => show win2_0.index t (1 : Fin 2) * 10000 + 1 * n.val = n.val; omega

theorem blk0_row5 (c : Dev nD) (t : Fin cfg2.N) (r : Fin 400) (k : Fin 1) (n : Fin 10000) :
    (iblk2 V c 0 t : S400x10000.Idx → EReal) (ix2 r n)
      = (V c main_arg1 : S10000x10000.Idx → EReal) (ix2 ((((cfg2.win 5).blk t).view.emb (ix2 r k)) 0) n) := by
  obtain ⟨e0, e1, e2, e3, -⟩ := idx_facts t
  show V c main_arg1 (((cfg2.win 0).blk t).view.emb (ix2 r n)) = _
  refine congrArg _ (funext fun a => Fin.ext ?_)
  match a with
  | ⟨0, _⟩ => show win2_0.index t (0 : Fin 2) * 400 + 1 * r.val = win2_5.index t (0 : Fin 2) * 400 + 1 * r.val; omega
  | ⟨1, _⟩ => show win2_0.index t (1 : Fin 2) * 10000 + 1 * n.val = n.val; omega

/-- Each output block's column coordinate is the column itself. -/
theorem emb3_col (t : Fin cfg2.N) (r : Fin 400) (k : Fin 16) : ((((cfg2.win 3).blk t).view.emb (ix2 r k)) 1 : Fin 16) = k := by
  obtain ⟨-, -, -, -, e, -⟩ := idx_facts t
  apply Fin.ext
  show win2_3.index t (1 : Fin 2) * 16 + 1 * k.val = k.val; omega
theorem emb4_col (t : Fin cfg2.N) (r : Fin 400) (k : Fin 2) : ((((cfg2.win 4).blk t).view.emb (ix2 r k)) 1 : Fin 2) = k := by
  obtain ⟨-, -, -, -, -, e, -⟩ := idx_facts t
  apply Fin.ext
  show win2_4.index t (1 : Fin 2) * 2 + 1 * k.val = k.val; omega

/-- The block's logits at row r are the array's logits at the output block's row r. -/
theorem y_row (adjB : S400x10000.Idx → EReal) (adj : S10000x10000.Idx → EReal) (hw : S10000x18.Idx → EReal) (b : S1x18.Idx → EReal)
    (r : Fin 400) (p : Fin 10000) (h : ∀ n : Fin 10000, adjB (ix2 r n) = adj (ix2 p n)) (k : Fin 18) :
    k2_pay1 (F := Ideal) adjB hw b (ix2 r k) = yOf adj hw b p k :=
  (PayMm.pay_y adjB hw b r k).trans (addRow_mm_row (c2 adj) (c2 adjB) (c2 hw) (row1 b) p r h k)

/-- What point t writes back to the first output is block t of the one function. -/
theorem flushed3_eq (c : Dev nD) (t : Fin cfg2.N) :
    (dat2 V c).flushed 3 t = ((cfg2.win 3).blk t).view.read (Elt Ideal) (out1Of (V c main_arg1) (V c main_v5) (V c main_v2)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x18) hz, View.ld_unit_zero (S := S1x18) hz]
  rw [blk1 V c t, blk2 V c t]
  funext j
  obtain ⟨r, k, rfl⟩ : ∃ (r : Fin 400) (k : Fin 16), j = ix2 r k := ⟨j 0, j 1, eq_ix2 j⟩
  show k2_pay2 (F := Ideal) (iblk2 V c 0 t) (V c main_v5) (V c main_v2) (ix2 r k)
    = out1Of (V c main_arg1) (V c main_v5) (V c main_v2) (((cfg2.win 3).blk t).view.emb (ix2 r k))
  refine (PaySm.pay_lsm16 _ _ _ r k).trans ?_
  unfold out1Of
  rw [emb3_col t r k]
  exact congrArg (fun y => lsm y k) (funext fun k' => y_row _ _ _ _ r _ (fun n => blk0_row3 V c t r k n) (lo k'))

/-- What point t writes back to the second output is block t of the one function. -/
theorem flushed4_eq (c : Dev nD) (t : Fin cfg2.N) :
    (dat2 V c).flushed 4 t = ((cfg2.win 4).blk t).view.read (Elt Ideal) (out2Of (V c main_arg1) (V c main_v5) (V c main_v2)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x18) hz, View.ld_unit_zero (S := S1x18) hz]
  rw [blk1 V c t, blk2 V c t]
  funext j
  obtain ⟨r, k, rfl⟩ : ∃ (r : Fin 400) (k : Fin 2), j = ix2 r k := ⟨j 0, j 1, eq_ix2 j⟩
  show k2_pay3 (F := Ideal) (iblk2 V c 0 t) (V c main_v5) (V c main_v2) (ix2 r k)
    = out2Of (V c main_arg1) (V c main_v5) (V c main_v2) (((cfg2.win 4).blk t).view.emb (ix2 r k))
  refine (PaySm.pay_lsm2 _ _ _ r k).trans ?_
  unfold out2Of
  rw [emb4_col t r k]
  exact congrArg (fun y => lsm y k) (funext fun k' => y_row _ _ _ _ r _ (fun n => blk0_row4 V c t r k n) (hi k'))

/-- What point t writes back to the third output is block t of the one function. -/
theorem flushed5_eq (c : Dev nD) (t : Fin cfg2.N) :
    (dat2 V c).flushed 5 t = ((cfg2.win 5).blk t).view.read (Elt Ideal) (out3Of (V c main_arg1) (V c main_v5) (V c main_v2)) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x18) hz, View.ld_unit_zero (S := S1x18) hz]
  rw [blk1 V c t, blk2 V c t]
  funext j
  obtain ⟨r, k, rfl⟩ : ∃ (r : Fin 400) (k : Fin 1), j = ix2 r k := ⟨j 0, j 1, eq_ix2 j⟩
  obtain rfl : k = (0 : Fin 1) := Subsingleton.elim _ _
  show k2_pay4 (F := Ideal) (iblk2 V c 0 t) (V c main_v5) (V c main_v2) (ix2 r (0 : Fin 1))
    = out3Of (V c main_arg1) (V c main_v5) (V c main_v2) (((cfg2.win 5).blk t).view.emb (ix2 r (0 : Fin 1)))
  refine (PaySm.pay_exp15 _ _ _ r).trans ?_
  unfold out3Of
  refine congrArg Ideal.exp ?_
  refine (PaySm.pay_lsm16 _ _ _ r (15 : Fin 16)).trans ?_
  exact congrArg (fun y => lsm y (15 : Fin 16)) (funext fun k' => y_row _ _ _ _ r _ (fun n => blk0_row5 V c t r 0 n) (lo k'))

/-- An index of an output array is in point t's block iff each coordinate is in the block's range on its axis. -/
theorem mem_blk3 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v6_0).slice (win2_3.rect t)).set ↔ _
  rw [View.set_slice_whole, Rect.mem_set_unit]
  exact Iff.rfl
theorem mem_blk4 (t : Fin cfg2.N) (i : S10000x2.Idx) :
    i ∈ ((cfg2.win 4).blk t).view.set ↔ ∀ a : Fin 2, win2_4.index t a * S400x2.size a ≤ (i a).val ∧ (i a).val < win2_4.index t a * S400x2.size a + S400x2.size a := by
  show i ∈ ((View.whole main_v6_1).slice (win2_4.rect t)).set ↔ _
  rw [View.set_slice_whole, Rect.mem_set_unit]
  exact Iff.rfl
theorem mem_blk5 (t : Fin cfg2.N) (i : S10000x1.Idx) :
    i ∈ ((cfg2.win 5).blk t).view.set ↔ ∀ a : Fin 2, win2_5.index t a * S400x1.size a ≤ (i a).val ∧ (i a).val < win2_5.index t a * S400x1.size a + S400x1.size a := by
  show i ∈ ((View.whole main_v6_2).slice (win2_5.rect t)).set ↔ _
  rw [View.set_slice_whole, Rect.mem_set_unit]
  exact Iff.rfl

/-- The 25 blocks of 400 rows tile each output array: the point that covers row p is the one at row block p / 400. -/
theorem cover3 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨t, ht⟩ := idx_onto3 ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_blk3]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 16 ≤ (i 1).val ∧ (i 1).val < win2_3.index t (1 : Fin 2) * 16 + 16; omega
theorem cover4 (i : S10000x2.Idx) : ∃ t : Fin cfg2.N, (cfg2.win 4).flush t = true ∧ i ∈ ((cfg2.win 4).blk t).view.set := by
  have hi0 : (i 0).val < 10000 := (i 0).isLt
  have hi1 : (i 1).val < 2 := (i 1).isLt
  obtain ⟨t, ht⟩ := idx_onto4 ⟨(i 0).val / 400, by omega⟩
  have q0 : win2_4.index t (0 : Fin 2) = (i 0).val / 400 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 2 ≤ (i 1).val ∧ (i 1).val < win2_4.index t (1 : Fin 2) * 2 + 2; omega
theorem cover5 (i : S10000x1.Idx) : ∃ t : Fin cfg2.N, (cfg2.win 5).flush t = true ∧ i ∈ ((cfg2.win 5).blk t).view.set := by
  have hi0 : (i 0).val < 10000 := (i 0).isLt
  have hi1 : (i 1).val < 1 := (i 1).isLt
  obtain ⟨t, ht⟩ := idx_onto5 ⟨(i 0).val / 400, by omega⟩
  have q0 : win2_5.index t (0 : Fin 2) = (i 0).val / 400 := congrFun ht 0
  have q1 : win2_5.index t (1 : Fin 2) = 0 := congrFun ht 1
  refine ⟨t, flush2_5 t, ?_⟩
  rw [mem_blk5]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 1 ≤ (i 1).val ∧ (i 1).val < win2_5.index t (1 : Fin 2) * 1 + 1; omega

/-- The three output arrays after the region, of the arrays as the region found them. -/
theorem value3 (c : Dev nD) : (dat2 V c).arrAt 3 cfg2.N = out1Of (V c main_arg1) (V c main_v5) (V c main_v2) :=
  (dat2 V c).arrAt_eq_of_cover 3 _ (fun t _ => flushed3_eq V c t) cover3
theorem value4 (c : Dev nD) : (dat2 V c).arrAt 4 cfg2.N = out2Of (V c main_arg1) (V c main_v5) (V c main_v2) :=
  (dat2 V c).arrAt_eq_of_cover 4 _ (fun t _ => flushed4_eq V c t) cover4
theorem value5 (c : Dev nD) : (dat2 V c).arrAt 5 cfg2.N = out3Of (V c main_arg1) (V c main_v5) (V c main_v2) :=
  (dat2 V c).arrAt_eq_of_cover 5 _ (fun t _ => flushed5_eq V c t) cover5

end Cert.KernelIdeal.Reg2

end
-- ==== Proof.HostOps.lean ====
/-
  The host operations around the three launched regions, read at an index.
  The two heads' weight matrices are put side by side (64 × 16 and 64 × 2 into 64 × 18) and the two bias
  vectors end to end (16 and 2 into 18); a vector becomes a one-row matrix; and at the end a one-column
  matrix becomes a vector. Entry by entry these are the side-by-side matrix, the end-to-end vector, the
  vector itself, and the column's entry.
-/
import proofs.«106332_g43568148250684_cont_sun_m_331_2_alg».proof.KernelIdeal
import proofs.«106332_g43568148250684_cont_sun_m_331_2_alg».proof.Proof.Heads
import Idealize.ShloMosaic.Lib.ValueIdx
import Idealize.ShloMosaic.Lib.Pipeline.Value
import Idealize.ShloMosaic.Lib.ValueLayout

noncomputable section

namespace Cert.KernelIdeal.HostOps

open Cert.KernelIdeal Cert.Gcn Idealize.ShloMosaic Idealize.ShloMosaic.ValueIdx
open Cert.KernelIdeal.Facts₀

variable [Cert.KernelIdeal.Facts]

/-- The two weight matrices side by side: column k < 16 is column k of the first, column k ≥ 16 is column
    k − 16 of the second. -/
theorem cat_w (a : S64x16.Idx → EReal) (b : S64x2.Idx → EReal) :
    c2 (concatenate S64x18 1 [⟨S64x16, a⟩, ⟨S64x2, b⟩] concatenates_S64x16_S64x2_S64x18_d1 : S64x18.Idx → EReal)
      = catCols (c2 a) (c2 b) := by
  funext j k
  unfold catCols
  by_cases hk : k.val < 16
  · rw [dif_pos hk]
    exact concatenate_pair_apply_left (1 : Fin S64x18.rank) a b concatenates_S64x16_S64x2_S64x18_d1 (ix2 j k) rfl
      (ix2 j ⟨k.val, hk⟩) (fun ax => match ax with
        | ⟨0, _⟩ => rfl
        | ⟨1, _⟩ => rfl)
  · rw [dif_neg hk]
    exact concatenate_pair_apply_right (1 : Fin S64x18.rank) a b concatenates_S64x16_S64x2_S64x18_d1 (ix2 j k) rfl rfl
      (ix2 j ⟨k.val - 16, by have := k.isLt; omega⟩) (fun ax hne => match ax, hne with
        | ⟨0, _⟩, _ => rfl
        | ⟨1, _⟩, hne => absurd rfl hne)
      (by show k.val - 16 + 16 = k.val; omega)

/-- The two bias vectors end to end, as a one-row matrix: entry k < 16 is entry k of the first, entry k ≥ 16
    is entry k − 16 of the second. -/
theorem cat_b (a : S16.Idx → EReal) (b : S2.Idx → EReal) :
    row1 (broadcastInDim S1x18 ![1] bcast_S18_S1x18_1 (concatenate S18 0 [⟨S16, a⟩, ⟨S2, b⟩] concatenates_S16_S2_S18_d0) : S1x18.Idx → EReal)
      = catVec (c1 a) (c1 b) := by
  funext k
  refine (broadcastInDim_apply ![1] bcast_S18_S1x18_1 _ (ix2 (0 : Fin 1) k) (ix1 k) (fun ax => match ax with
    | ⟨0, _⟩ => by
      show k.val = if (18 : ℕ) = 1 then 0 else k.val
      rw [if_neg (by decide)])).trans ?_
  unfold catVec
  by_cases hk : k.val < 16
  · rw [dif_pos hk]
    exact concatenate_pair_apply_left (0 : Fin S18.rank) a b concatenates_S16_S2_S18_d0 (ix1 k) rfl
      (ix1 ⟨k.val, hk⟩) (fun ax => match ax with
        | ⟨0, _⟩ => rfl)
  · rw [dif_neg hk]
    exact concatenate_pair_apply_right (0 : Fin S18.rank) a b concatenates_S16_S2_S18_d0 (ix1 k) rfl rfl
      (ix1 ⟨k.val - 16, by have := k.isLt; omega⟩) (fun ax hne => match ax, hne with
        | ⟨0, _⟩, hne => absurd rfl hne)
      (by show k.val - 16 + 16 = k.val; omega)

/-- The first layer's bias as a one-row matrix: its row is the vector. -/
theorem row_b1 (a : S64.Idx → EReal) :
    row1 (broadcastInDim S1x64 ![1] bcast_S64_S1x64_1 a : S1x64.Idx → EReal) = c1 a := by
  funext k
  exact broadcastInDim_apply ![1] bcast_S64_S1x64_1 a (ix2 (0 : Fin 1) k) (ix1 k) (fun ax => match ax with
    | ⟨0, _⟩ => by
      show k.val = if (64 : ℕ) = 1 then 0 else k.val
      rw [if_neg (by decide)])

/-- A one-column matrix read as a vector: entry i is the column's entry in row i. -/
theorem reshape_col (x : S10000x1.Idx → EReal) (i : S10000.Idx) :
    shapeCast S10000 x shapeCasts_S10000x1_S10000 i = x (ix2 (i 0) (0 : Fin 1)) :=
  shapeCast_apply x shapeCasts_S10000x1_S10000 i (ix2 (i 0) (0 : Fin 1)) (by
    rw [Shape.rowMajor_val_two, Shape.rowMajor_val_one]
    show (i 0).val * 1 + 0 = (i 0).val
    omega)

end Cert.KernelIdeal.HostOps

end
-- ==== Proof.Values.lean ====
/-
  The idealized kernel's three results as functions of the argument arrays.

  Reading the segment boundaries back: the third region's outputs are the softmax heads of A · HW + b, where HW is
  the second region's output H · [W₂ | W₃] with H = max (A · XW + b₁, 0), XW the first region's output X · W₁, and
  b the paired biases. Column k of the first head among the 18 paired columns is column k of W₂ (and of b₂), column
  16 + k is column k of W₃ (and of b₃); so the first 16 logits of a row are the first head's logits
  A · (H · W₂) + b₂ and the last 2 the second head's, and the results are the log-softmax of each head and the
  exponential of the first head's last log-softmax entry.
-/
import proofs.«106332_g43568148250684_cont_sun_m_331_2_alg».proof.Proof.Bounds
import proofs.«106332_g43568148250684_cont_sun_m_331_2_alg».proof.Proof.Region0
import proofs.«106332_g43568148250684_cont_sun_m_331_2_alg».proof.Proof.Region1
import proofs.«106332_g43568148250684_cont_sun_m_331_2_alg».proof.Proof.Region2
import proofs.«106332_g43568148250684_cont_sun_m_331_2_alg».proof.Proof.HostOps
import proofs.«106332_g43568148250684_cont_sun_m_331_2_alg».proof.Proof.HeadsLaws

set_option maxRecDepth 16384

noncomputable section

namespace Cert.KernelIdeal.Values

open Cert.KernelIdeal Cert.KernelIdeal.Gen Cert.Gcn
open Idealize.ShloMosaic Idealize.ShloMosaic.TcCoe Idealize.ShloMosaic.ValueIdx Idealize.SL.Sem

/-! ## The composition, over any eight arrays -/

section Core

variable (x : S10000x128.Idx → EReal) (A : S10000x10000.Idx → EReal) (w1 : S128x64.Idx → EReal) (b1 : S64.Idx → EReal)
  (w2 : S64x16.Idx → EReal) (b2 : S16.Idx → EReal) (w3 : S64x2.Idx → EReal) (b3 : S2.Idx → EReal)

/-- The second region's output from the arguments: H · [W₂ | W₃]. -/
abbrev hwArr : S10000x18.Idx → EReal :=
  Reg1.hwOf A (Reg0.xwOf x w1) (broadcastInDim S1x64 ![1] Facts₀.bcast_S64_S1x64_1 b1)
    (concatenate S64x18 1 [⟨S64x16, w2⟩, ⟨S64x2, w3⟩] Facts₀.concatenates_S64x16_S64x2_S64x18_d1)

/-- The paired biases as a row, from the arguments. -/
abbrev bRow : S1x18.Idx → EReal :=
  broadcastInDim S1x18 ![1] Facts₀.bcast_S18_S1x18_1 (concatenate S18 0 [⟨S16, b2⟩, ⟨S2, b3⟩] Facts₀.concatenates_S16_S2_S18_d0)

/-- The second region's output through its coordinates is the product of the hidden layer with the paired heads. -/
theorem c2_hwArr : c2 (hwArr x A w1 b1 w2 w3) = mm (Cert.Gcn.hidden (c2 x) (c2 A) (c2 w1) (c1 b1)) (catCols (c2 w2) (c2 w3)) := by
  have e : c2 (hwArr x A w1 b1 w2 w3)
      = mm (hidR (c2 A) (mm (c2 x) (c2 w1)) (row1 (broadcastInDim S1x64 ![1] Facts₀.bcast_S64_S1x64_1 b1)))
          (c2 (concatenate S64x18 1 [⟨S64x16, w2⟩, ⟨S64x2, w3⟩] Facts₀.concatenates_S64x16_S64x2_S64x18_d1 : S64x18.Idx → EReal)) := rfl
  rw [e, HostOps.row_b1, HostOps.cat_w]
  unfold Cert.Gcn.hidden
  rw [hid_eq_hidR]

/-- A row's first 16 logits are the first head's. -/
theorem logit_lo (p : Fin 10000) (k : Fin 16) :
    Reg2.yOf A (hwArr x A w1 b1 w2 w3) (bRow b2 b3) p (lo k) = y1 (c2 x) (c2 A) (c2 w1) (c1 b1) (c2 w2) (c1 b2) p k := by
  unfold Reg2.yOf
  rw [c2_hwArr, HostOps.cat_b]
  exact logits_cat_lo (c2 A) (Cert.Gcn.hidden (c2 x) (c2 A) (c2 w1) (c1 b1)) (c2 w2) (c2 w3) (c1 b2) (c1 b3) p k

/-- A row's last 2 logits are the second head's. -/
theorem logit_hi (p : Fin 10000) (k : Fin 2) :
    Reg2.yOf A (hwArr x A w1 b1 w2 w3) (bRow b2 b3) p (hi k) = y2 (c2 x) (c2 A) (c2 w1) (c1 b1) (c2 w3) (c1 b3) p k := by
  unfold Reg2.yOf
  rw [c2_hwArr, HostOps.cat_b]
  exact logits_cat_hi (c2 A) (Cert.Gcn.hidden (c2 x) (c2 A) (c2 w1) (c1 b1)) (c2 w2) (c2 w3) (c1 b2) (c1 b3) p k

theorem out1_core : Reg2.out1Of A (hwArr x A w1 b1 w2 w3) (bRow b2 b3)
    = fun i => lsm (y1 (c2 x) (c2 A) (c2 w1) (c1 b1) (c2 w2) (c1 b2) (i 0)) (i 1) :=
  funext fun i => congrArg (fun y => lsm y (i 1)) (funext fun k' => logit_lo x A w1 b1 w2 b2 w3 b3 (i 0) k')

theorem out2_core : Reg2.out2Of A (hwArr x A w1 b1 w2 w3) (bRow b2 b3)
    = fun i => lsm (y2 (c2 x) (c2 A) (c2 w1) (c1 b1) (c2 w3) (c1 b3) (i 0)) (i 1) :=
  funext fun i => congrArg (fun y => lsm y (i 1)) (funext fun k' => logit_hi x A w1 b1 w2 b2 w3 b3 (i 0) k')

theorem out3_core : shapeCast S10000 (Reg2.out3Of A (hwArr x A w1 b1 w2 w3) (bRow b2 b3)) Facts₀.shapeCasts_S10000x1_S10000
    = fun i => Ideal.exp (lsm (y1 (c2 x) (c2 A) (c2 w1) (c1 b1) (c2 w2) (c1 b2) (i 0)) (15 : Fin 16)) := by
  funext i
  rw [HostOps.reshape_col]
  show Ideal.exp (lsm (fun k' : Fin 16 => Reg2.yOf A (hwArr x A w1 b1 w2 w3) (bRow b2 b3) (i 0) (lo k')) (15 : Fin 16)) = _
  exact congrArg (fun y => Ideal.exp (lsm y (15 : Fin 16))) (funext fun k' => logit_lo x A w1 b1 w2 b2 w3 b3 (i 0) k')

end Core

/-! ## The run's boundaries -/

variable (m : (ℓ : Loc nD τ sig) → Buf (Elt Ideal) ℓ) (ρ : Dev nD → PrngReg)

/-- Where the third region is entered, its second operand is H · [W₂ | W₃] of the arguments. -/
theorem V3_v5_eq (c : Dev nD) : V3 m ρ c main_v5
    = hwArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine (Bounds.V3_v5 m ρ c).trans ((Reg1.value (V2 m ρ) c).trans ?_)
  have e4 : V2 m ρ c main_v4 = Reg0.xwOf (m ((c : Thread nD τ).loc main_arg0)) (m ((c : Thread nD τ).loc main_arg2)) :=
    (Bounds.V2_v4 m ρ c).trans ((Reg0.value (V1 m ρ) c).trans
      (congrArg₂ Reg0.xwOf (Bounds.W1_arg0 m ρ c) (Bounds.W1_arg2 m ρ c)))
  rw [Bounds.V2_arg1 m ρ c, e4, (Bounds.V2_v3 m ρ c).trans (Bounds.W1_v3 m ρ c), (Bounds.V2_v0 m ρ c).trans (Bounds.W1_v0 m ρ c)]

/-- The first result: the first head's log-softmax. -/
theorem res1 (c : Dev nD) : W5 m ρ c (Proc.devRef .tc main_v6_0)
    = fun i : S10000x16.Idx => lsm (y1 (c2 (m ((c : Thread nD τ).loc main_arg0))) (c2 (m ((c : Thread nD τ).loc main_arg1))) (c2 (m ((c : Thread nD τ).loc main_arg2)))
        (c1 (m ((c : Thread nD τ).loc main_arg3))) (c2 (m ((c : Thread nD τ).loc main_arg4))) (c1 (m ((c : Thread nD τ).loc main_arg5))) (i 0)) (i 1) := by
  refine (Bounds.W5_v6_0 m ρ c).trans ((Reg2.value3 (V3 m ρ) c).trans ?_)
  rw [Bounds.V3_arg1 m ρ c, V3_v5_eq m ρ c, (Bounds.V3_v2 m ρ c).trans (Bounds.W1_v2 m ρ c)]
  exact out1_core _ _ _ _ _ _ _ _

/-- The second result: the second head's log-softmax. -/
theorem res2 (c : Dev nD) : W5 m ρ c (Proc.devRef .tc main_v6_1)
    = fun i : S10000x2.Idx => lsm (y2 (c2 (m ((c : Thread nD τ).loc main_arg0))) (c2 (m ((c : Thread nD τ).loc main_arg1))) (c2 (m ((c : Thread nD τ).loc main_arg2)))
        (c1 (m ((c : Thread nD τ).loc main_arg3))) (c2 (m ((c : Thread nD τ).loc main_arg6))) (c1 (m ((c : Thread nD τ).loc main_arg7))) (i 0)) (i 1) := by
  refine (Bounds.W5_v6_1 m ρ c).trans ((Reg2.value4 (V3 m ρ) c).trans ?_)
  rw [Bounds.V3_arg1 m ρ c, V3_v5_eq m ρ c, (Bounds.V3_v2 m ρ c).trans (Bounds.W1_v2 m ρ c)]
  exact out2_core _ _ _ _ _ _ _ _

/-- The third result: the exponential of the first head's last log-softmax entry. -/
theorem res3 (c : Dev nD) : W5 m ρ c (Proc.devRef .tc main_v7)
    = fun i : S10000.Idx => Ideal.exp (lsm (y1 (c2 (m ((c : Thread nD τ).loc main_arg0))) (c2 (m ((c : Thread nD τ).loc main_arg1))) (c2 (m ((c : Thread nD τ).loc main_arg2)))
        (c1 (m ((c : Thread nD τ).loc main_arg3))) (c2 (m ((c : Thread nD τ).loc main_arg4))) (c1 (m ((c : Thread nD τ).loc main_arg5))) (i 0)) (15 : Fin 16)) := by
  refine (Bounds.W5_v7 m ρ c).trans ?_
  rw [Reg2.value5 (V3 m ρ) c, Bounds.V3_arg1 m ρ c, V3_v5_eq m ρ c, (Bounds.V3_v2 m ρ c).trans (Bounds.W1_v2 m ρ c)]
  exact out3_core _ _ _ _ _ _ _ _

end Cert.KernelIdeal.Values

end
-- ==== Proof.RefValue.lean ====
/-
  The reference program's three results, as the specification's functions of the argument arrays.

  Each operation of the reference is read at an index from its operands at an index; composing these readings from
  the results back to the arguments gives, entry by entry:
    the first matrix product            X · W₁
    the second, plus the bias row       A · (X · W₁) + b₁,   and its maximum with 0:  the hidden layer H
    for each head (W, b)                A · (H · W) + b:     the logits Y
    the reduce over a row of Y from −∞, then its maximum with −∞:   the row's maximum m
    the sum from 0 of exp (yₖ − m):     the row's sum of exponentials S
    (yₖ − m) − log S                    the log-softmax (results 1 and 2)
    exp (yₖ − m) / S at column 15       the last column of the softmax (result 3).
-/
import proofs.«106332_g43568148250684_cont_sun_m_331_2_alg».proof.Proof.RefRead
import proofs.«106332_g43568148250684_cont_sun_m_331_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.ReadP Cert.Gcn Idealize.ShloMosaic Idealize.ShloMosaic.ValueIdx

/-! ## Rows, columns and the maximum over a row -/

/-- Over a row index `p`, the index with column `k` put back is (p, k). -/
theorem lift_col {n c : ℕ} (h : (⟨2, ![n, c]⟩ : Shape).Reduces [1] (⟨1, ![n]⟩ : Shape)) (p : Fin n)
    (k : Fin ((⟨2, ![n, c]⟩ : Shape).size 1)) : h.lift (ix1 p) k = ix2 p (⟨k.val, k.isLt⟩ : Fin c) := by
  funext a; apply Fin.ext
  fin_cases a <;> rfl

/-- The maximum with −∞ on the left is the other argument. -/
theorem max_negInf (m : EReal) : max (Ideal.ofBits .f32 0xFF800000#32) m = m := by
  rw [ofBits_negInf]; exact max_eq_right bot_le

/-- A reduce with a maximum body over the columns, from −∞, is at row `p` that row's maximum. -/
theorem hostReduce_rowMax {n c : ℕ} (x : (⟨2, ![n, c]⟩ : Shape).Idx → EReal) (init : (⟨0, ![]⟩ : Shape).Idx → EReal)
    (h' : (⟨2, ![n, c]⟩ : Shape).ReducesTo [1] (⟨1, ![n]⟩ : Shape)) (h : (⟨2, ![n, c]⟩ : Shape).Reduces [1] (⟨1, ![n]⟩ : Shape))
    (hu : 0 < (⟨0, ![]⟩ : Shape).numel) (hinit : ∀ i, init i = Ideal.ofBits .f32 0xFF800000#32) (p : Fin n) :
    Host.reduce (FloatOps.maximumf (F := Ideal) (φ := .f32)) x init h' hu (ix1 p) = rowMax fun k : Fin c => x (ix2 p k) := by
  rw [Host.reduce_eq_fold_single (FloatOps.maximumf (F := Ideal) (φ := .f32)) x init h' h hu, hinit]
  have hf : (x ∘ h.lift (ix1 p)) = fun k : Fin c => x (ix2 p k) := funext fun k => congrArg x (lift_col h p k)
  exact congrArg (fun f => Finset.fold max (Ideal.ofBits .f32 0xFF800000#32) f (Finset.univ : Finset (Fin c))) hf

theorem red16 : S10000x16.Reduces [1] S10000 := by decide
theorem red2 : S10000x2.Reduces [1] S10000 := by decide

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))
  (x6 : (⟨S64x2, .f32⟩ : BufTy).Contents (Elt Ideal)) (x7 : (⟨S2, .f32⟩ : BufTy).Contents (Elt Ideal))

/-! ## The hidden layer -/

/-- The features times the first layer's weights. -/
theorem v0_eq (p : Fin 10000) (q : Fin 64) : val_main_v0 (F := Ideal) x0 x2 (ix2 p q) = mm (c2 x0) (c2 x2) p q := by
  rw [val_main_v0_apply]
  refine Finset.sum_congr rfl fun k _ => ?_
  have el : lidx_main_v0 (ix2 p q) k = ix2 p k := by idx2
  have er : ridx_main_v0 (ix2 p q) k = ix2 k q := by idx2
  rw [el, er]

/-- The adjacency matrix times that. -/
theorem v1_eq (p : Fin 10000) (q : Fin 64) :
    val_main_v1 (F := Ideal) x0 x1 x2 (ix2 p q) = mm (c2 x1) (mm (c2 x0) (c2 x2)) p q := by
  rw [val_main_v1_apply]
  refine Finset.sum_congr rfl fun k _ => ?_
  have el : lidx_main_v1 (ix2 p q) k = ix2 p k := by idx2
  have er : ridx_main_v1 (ix2 p q) k = ix2 k q := by idx2
  rw [el, er, v0_eq]

/-- Plus the bias along each row. -/
theorem v4_eq (p : Fin 10000) (q : Fin 64) :
    val_main_v4 (F := Ideal) x0 x1 x2 x3 (ix2 p q) = addRow (mm (c2 x1) (mm (c2 x0) (c2 x2))) (c1 x3) p q := by
  have e : idx_main_v2 (idx_main_v3 (ix2 p q)) = ix1 q := by idx1
  rw [val_main_v4_apply, v1_eq, val_main_v3_apply, val_main_v2_apply, e, Ideal.addf_def]
  rfl

/-- Its maximum with 0: the hidden layer. -/
theorem v5_eq (p : Fin 10000) (q : Fin 64) :
    val_main_v5 (F := Ideal) x0 x1 x2 x3 (ix2 p q) = hidden (c2 x0) (c2 x1) (c2 x2) (c1 x3) p q := by
  rw [val_main_v5_apply, v4_eq, val_main_call0_v0_apply, val_main_call0_cst_apply, Ideal.maximumf_def, Ideal.ofBits_def,
    Ideal.ofBits_zero_f32]
  rfl

/-! ## The first head (16 classes) -/

/-- The hidden layer times the head's weights. -/
theorem v6_eq (p : Fin 10000) (q : Fin 16) :
    val_main_v6 (F := Ideal) x0 x1 x2 x3 x4 (ix2 p q) = mm (hidden (c2 x0) (c2 x1) (c2 x2) (c1 x3)) (c2 x4) p q := by
  rw [val_main_v6_apply]
  refine Finset.sum_congr rfl fun k _ => ?_
  have el : lidx_main_v6 (ix2 p q) k = ix2 p k := by idx2
  have er : ridx_main_v6 (ix2 p q) k = ix2 k q := by idx2
  rw [el, er, v5_eq]

/-- The adjacency matrix times that. -/
theorem v7_eq (p : Fin 10000) (q : Fin 16) :
    val_main_v7 (F := Ideal) x0 x1 x2 x3 x4 (ix2 p q) = mm (c2 x1) (mm (hidden (c2 x0) (c2 x1) (c2 x2) (c1 x3)) (c2 x4)) p q := by
  rw [val_main_v7_apply]
  refine Finset.sum_congr rfl fun k _ => ?_
  have el : lidx_main_v7 (ix2 p q) k = ix2 p k := by idx2
  have er : ridx_main_v7 (ix2 p q) k = ix2 k q := by idx2
  rw [el, er, v6_eq]

/-- The head's logits. -/
theorem v10_eq (p : Fin 10000) (q : Fin 16) : val_main_v10 (F := Ideal) x0 x1 x2 x3 x4 x5 (ix2 p q) = (y1 (c2 x0) (c2 x1) (c2 x2) (c1 x3) (c2 x4) (c1 x5)) p q := by
  have e : idx_main_v8 (idx_main_v9 (ix2 p q)) = ix1 q := by idx1
  rw [val_main_v10_apply, v7_eq, val_main_v9_apply, val_main_v8_apply, e, Ideal.addf_def]
  rfl

/-- The reduce over the columns of the logits, at row p, is the row's maximum. -/
theorem h1_v0_eq (p : Fin 10000) : val_main_call1_v0 (F := Ideal) x0 x1 x2 x3 x4 x5 (ix1 p) = rowMax ((y1 (c2 x0) (c2 x1) (c2 x2) (c1 x3) (c2 x4) (c1 x5)) p) := by
  unfold val_main_call1_v0
  refine (hostReduce_rowMax (val_main_v10 (F := Ideal) x0 x1 x2 x3 x4 x5) (val_main_call1_cst (F := Ideal)) _ red16 _ (fun _ => rfl) p).trans ?_
  exact congrArg rowMax (funext fun k => v10_eq x0 x1 x2 x3 x4 x5 p k)

/-- The maximum of that with −∞ is still the row's maximum. -/
theorem h1_v2_eq (p : Fin 10000) : val_main_call1_v2 (F := Ideal) x0 x1 x2 x3 x4 x5 (ix1 p) = rowMax ((y1 (c2 x0) (c2 x1) (c2 x2) (c1 x3) (c2 x4) (c1 x5)) p) := by
  rw [val_main_call1_v2_apply, h1_v0_eq, val_main_call1_v1_apply, val_main_call1_cst_0_apply, Ideal.maximumf_def,
    Ideal.ofBits_def, max_negInf]

/-- The logits less their row's maximum. -/
theorem h1_v5_eq (p : Fin 10000) (q : Fin 16) :
    val_main_call1_v5 (F := Ideal) x0 x1 x2 x3 x4 x5 (ix2 p q) = (y1 (c2 x0) (c2 x1) (c2 x2) (c1 x3) (c2 x4) (c1 x5)) p q - rowMax ((y1 (c2 x0) (c2 x1) (c2 x2) (c1 x3) (c2 x4) (c1 x5)) p) := by
  have e : idx_main_call1_v3 (idx_main_call1_v4 (ix2 p q)) = ix1 p := by idx1
  rw [val_main_call1_v5_apply, v10_eq, val_main_call1_v4_apply, val_main_call1_v3_apply, e, h1_v2_eq, Ideal.subf_def]

/-- The row's sum of exponentials. -/
theorem h1_v7_eq (p : Fin 10000) : val_main_call1_v7 (F := Ideal) x0 x1 x2 x3 x4 x5 (ix1 p) = expSum ((y1 (c2 x0) (c2 x1) (c2 x2) (c1 x3) (c2 x4) (c1 x5)) p) := by
  rw [val_main_call1_v7_apply, val_main_call1_cst_1_apply, Ideal.ofBits_def, Ideal.ofBits_zero_f32, zero_add]
  refine Finset.sum_congr rfl fun k _ => ?_
  have e : idx_main_call1_v7 (ix1 p) k = ix2 p k := by idx2
  rw [e, val_main_call1_v6_apply, h1_v5_eq, Ideal.hostUnary_exp_def]

/-- The log-softmax of the row, entry q. -/
theorem v16_eq (p : Fin 10000) (q : Fin 16) : val_main_v16 (F := Ideal) x0 x1 x2 x3 x4 x5 (ix2 p q) = lsm ((y1 (c2 x0) (c2 x1) (c2 x2) (c1 x3) (c2 x4) (c1 x5)) p) q := by
  have e : idx_main_call1_v8 (idx_main_call1_v10 (ix2 p q)) = ix1 p := by idx1
  rw [val_main_v16_apply, h1_v5_eq, val_main_call1_v10_apply, val_main_call1_v9_apply, val_main_call1_v8_apply, e,
    h1_v7_eq, Ideal.subf_def, Ideal.hostUnary_log_def]
  rfl

theorem out1_eq : val_main_v16 (F := Ideal) x0 x1 x2 x3 x4 x5 = fun i => lsm ((y1 (c2 x0) (c2 x1) (c2 x2) (c1 x3) (c2 x4) (c1 x5)) (i 0)) (i 1) := by
  funext i
  obtain ⟨p, q, rfl⟩ : ∃ (p : Fin 10000) (q : Fin 16), i = ix2 p q := ⟨i 0, i 1, eq_ix2 i⟩
  exact v16_eq x0 x1 x2 x3 x4 x5 p q

/-! ## The second head (2 classes) -/

/-- The hidden layer times the head's weights. -/
theorem v11_eq (p : Fin 10000) (q : Fin 2) :
    val_main_v11 (F := Ideal) x0 x1 x2 x3 x6 (ix2 p q) = mm (hidden (c2 x0) (c2 x1) (c2 x2) (c1 x3)) (c2 x6) p q := by
  rw [val_main_v11_apply]
  refine Finset.sum_congr rfl fun k _ => ?_
  have el : lidx_main_v11 (ix2 p q) k = ix2 p k := by idx2
  have er : ridx_main_v11 (ix2 p q) k = ix2 k q := by idx2
  rw [el, er, v5_eq]

/-- The adjacency matrix times that. -/
theorem v12_eq (p : Fin 10000) (q : Fin 2) :
    val_main_v12 (F := Ideal) x0 x1 x2 x3 x6 (ix2 p q) = mm (c2 x1) (mm (hidden (c2 x0) (c2 x1) (c2 x2) (c1 x3)) (c2 x6)) p q := by
  rw [val_main_v12_apply]
  refine Finset.sum_congr rfl fun k _ => ?_
  have el : lidx_main_v12 (ix2 p q) k = ix2 p k := by idx2
  have er : ridx_main_v12 (ix2 p q) k = ix2 k q := by idx2
  rw [el, er, v11_eq]

/-- The head's logits. -/
theorem v15_eq (p : Fin 10000) (q : Fin 2) : val_main_v15 (F := Ideal) x0 x1 x2 x3 x6 x7 (ix2 p q) = (y2 (c2 x0) (c2 x1) (c2 x2) (c1 x3) (c2 x6) (c1 x7)) p q := by
  have e : idx_main_v13 (idx_main_v14 (ix2 p q)) = ix1 q := by idx1
  rw [val_main_v15_apply, v12_eq, val_main_v14_apply, val_main_v13_apply, e, Ideal.addf_def]
  rfl

/-- The reduce over the columns of the logits, at row p, is the row's maximum. -/
theorem h2_v0_eq (p : Fin 10000) : val_main_call2_v0 (F := Ideal) x0 x1 x2 x3 x6 x7 (ix1 p) = rowMax ((y2 (c2 x0) (c2 x1) (c2 x2) (c1 x3) (c2 x6) (c1 x7)) p) := by
  unfold val_main_call2_v0
  refine (hostReduce_rowMax (val_main_v15 (F := Ideal) x0 x1 x2 x3 x6 x7) (val_main_call2_cst (F := Ideal)) _ red2 _ (fun _ => rfl) p).trans ?_
  exact congrArg rowMax (funext fun k => v15_eq x0 x1 x2 x3 x6 x7 p k)

/-- The maximum of that with −∞ is still the row's maximum. -/
theorem h2_v2_eq (p : Fin 10000) : val_main_call2_v2 (F := Ideal) x0 x1 x2 x3 x6 x7 (ix1 p) = rowMax ((y2 (c2 x0) (c2 x1) (c2 x2) (c1 x3) (c2 x6) (c1 x7)) p) := by
  rw [val_main_call2_v2_apply, h2_v0_eq, val_main_call2_v1_apply, val_main_call2_cst_0_apply, Ideal.maximumf_def,
    Ideal.ofBits_def, max_negInf]

/-- The logits less their row's maximum. -/
theorem h2_v5_eq (p : Fin 10000) (q : Fin 2) :
    val_main_call2_v5 (F := Ideal) x0 x1 x2 x3 x6 x7 (ix2 p q) = (y2 (c2 x0) (c2 x1) (c2 x2) (c1 x3) (c2 x6) (c1 x7)) p q - rowMax ((y2 (c2 x0) (c2 x1) (c2 x2) (c1 x3) (c2 x6) (c1 x7)) p) := by
  have e : idx_main_call2_v3 (idx_main_call2_v4 (ix2 p q)) = ix1 p := by idx1
  rw [val_main_call2_v5_apply, v15_eq, val_main_call2_v4_apply, val_main_call2_v3_apply, e, h2_v2_eq, Ideal.subf_def]

/-- The row's sum of exponentials. -/
theorem h2_v7_eq (p : Fin 10000) : val_main_call2_v7 (F := Ideal) x0 x1 x2 x3 x6 x7 (ix1 p) = expSum ((y2 (c2 x0) (c2 x1) (c2 x2) (c1 x3) (c2 x6) (c1 x7)) p) := by
  rw [val_main_call2_v7_apply, val_main_call2_cst_1_apply, Ideal.ofBits_def, Ideal.ofBits_zero_f32, zero_add]
  refine Finset.sum_congr rfl fun k _ => ?_
  have e : idx_main_call2_v7 (ix1 p) k = ix2 p k := by idx2
  rw [e, val_main_call2_v6_apply, h2_v5_eq, Ideal.hostUnary_exp_def]

/-- The log-softmax of the row, entry q. -/
theorem v17_eq (p : Fin 10000) (q : Fin 2) : val_main_v17 (F := Ideal) x0 x1 x2 x3 x6 x7 (ix2 p q) = lsm ((y2 (c2 x0) (c2 x1) (c2 x2) (c1 x3) (c2 x6) (c1 x7)) p) q := by
  have e : idx_main_call2_v8 (idx_main_call2_v10 (ix2 p q)) = ix1 p := by idx1
  rw [val_main_v17_apply, h2_v5_eq, val_main_call2_v10_apply, val_main_call2_v9_apply, val_main_call2_v8_apply, e,
    h2_v7_eq, Ideal.subf_def, Ideal.hostUnary_log_def]
  rfl

theorem out2_eq : val_main_v17 (F := Ideal) x0 x1 x2 x3 x6 x7 = fun i => lsm ((y2 (c2 x0) (c2 x1) (c2 x2) (c1 x3) (c2 x6) (c1 x7)) (i 0)) (i 1) := by
  funext i
  obtain ⟨p, q, rfl⟩ : ∃ (p : Fin 10000) (q : Fin 2), i = ix2 p q := ⟨i 0, i 1, eq_ix2 i⟩
  exact v17_eq x0 x1 x2 x3 x6 x7 p q

/-! ## The softmax of the first head, last column -/

/-- The reduce over the columns of the logits, at row p, is the row's maximum. -/
theorem v18_eq (p : Fin 10000) : val_main_v18 (F := Ideal) x0 x1 x2 x3 x4 x5 (ix1 p) = rowMax ((y1 (c2 x0) (c2 x1) (c2 x2) (c1 x3) (c2 x4) (c1 x5)) p) := by
  unfold val_main_v18
  refine (hostReduce_rowMax (val_main_v10 (F := Ideal) x0 x1 x2 x3 x4 x5) (val_main_cst (F := Ideal)) _ red16 _ (fun _ => rfl) p).trans ?_
  exact congrArg rowMax (funext fun k => v10_eq x0 x1 x2 x3 x4 x5 p k)

/-- The maximum of that with −∞ is still the row's maximum. -/
theorem v20_eq (p : Fin 10000) : val_main_v20 (F := Ideal) x0 x1 x2 x3 x4 x5 (ix1 p) = rowMax ((y1 (c2 x0) (c2 x1) (c2 x2) (c1 x3) (c2 x4) (c1 x5)) p) := by
  rw [val_main_v20_apply, v18_eq, val_main_v19_apply, val_main_cst_0_apply, Ideal.maximumf_def, Ideal.ofBits_def, max_negInf]

/-- The exponential of the logits less their row's maximum. -/
theorem v24_eq (p : Fin 10000) (q : Fin 16) :
    val_main_v24 (F := Ideal) x0 x1 x2 x3 x4 x5 (ix2 p q) = Ideal.exp ((y1 (c2 x0) (c2 x1) (c2 x2) (c1 x3) (c2 x4) (c1 x5)) p q - rowMax ((y1 (c2 x0) (c2 x1) (c2 x2) (c1 x3) (c2 x4) (c1 x5)) p)) := by
  have e : idx_main_v21 (idx_main_v22 (ix2 p q)) = ix1 p := by idx1
  rw [val_main_v24_apply, val_main_v23_apply, v10_eq, val_main_v22_apply, val_main_v21_apply, e, v20_eq, Ideal.subf_def,
    Ideal.hostUnary_exp_def]

/-- The row's sum of exponentials. -/
theorem v25_eq (p : Fin 10000) : val_main_v25 (F := Ideal) x0 x1 x2 x3 x4 x5 (ix1 p) = expSum ((y1 (c2 x0) (c2 x1) (c2 x2) (c1 x3) (c2 x4) (c1 x5)) p) := by
  rw [val_main_v25_apply, val_main_cst_1_apply, Ideal.ofBits_def, Ideal.ofBits_zero_f32, zero_add]
  refine Finset.sum_congr rfl fun k _ => ?_
  have e : idx_main_v25 (ix1 p) k = ix2 p k := by idx2
  rw [e, v24_eq]

/-- The softmax of the row, entry q. -/
theorem v28_eq (p : Fin 10000) (q : Fin 16) : val_main_v28 (F := Ideal) x0 x1 x2 x3 x4 x5 (ix2 p q) = smx ((y1 (c2 x0) (c2 x1) (c2 x2) (c1 x3) (c2 x4) (c1 x5)) p) q := by
  have e : idx_main_v26 (idx_main_v27 (ix2 p q)) = ix1 p := by idx1
  rw [val_main_v28_apply, v24_eq, val_main_v27_apply, val_main_v26_apply, e, v25_eq, Ideal.hostDivf_def]
  rfl

/-- The slice at column 15, with its unit axis dropped. -/
theorem v30_eq (p : Fin 10000) : val_main_v30 (F := Ideal) x0 x1 x2 x3 x4 x5 (ix1 p) = smx ((y1 (c2 x0) (c2 x1) (c2 x2) (c1 x3) (c2 x4) (c1 x5)) p) (15 : Fin 16) := by
  have e : idx_main_v29 (idx_main_v30 (ix1 p)) = ix2 p (15 : Fin 16) :=
    funext fun a => Fin.ext (by match a with | ⟨0, _⟩ => exact Nat.div_one _ | ⟨1, _⟩ => rfl)
  rw [val_main_v30_apply, val_main_v29_apply, e, v28_eq]

theorem out3_eq : val_main_v30 (F := Ideal) x0 x1 x2 x3 x4 x5 = fun i => smx ((y1 (c2 x0) (c2 x1) (c2 x2) (c1 x3) (c2 x4) (c1 x5)) (i 0)) (15 : Fin 16) := by
  funext i
  obtain ⟨p, rfl⟩ : ∃ p : Fin 10000, i = ix1 p := ⟨i 0, eq_ix1 i⟩
  exact v30_eq x0 x1 x2 x3 x4 x5 p

end Cert.ReferenceIdeal.RefValue

end
-- ==== Proof.IsReal.lean ====
/-
  Finiteness on the extended reals: an extended real is finite when it is (the image of) a real number,
  that is, neither +∞ nor −∞.
-/
import Idealize.ShloMosaic.PureOps.Ideal

namespace Cert.Gcn

/-- An extended real that is a real number (neither infinity). -/
def IsR (x : EReal) : Prop := ∃ r : ℝ, x = (r : EReal)

theorem IsR.coe (r : ℝ) : IsR (r : EReal) := ⟨r, rfl⟩

end Cert.Gcn
-- ==== Proof.RealLaws.lean ====
/-
  Finiteness on the extended reals is closed under the network's operations (sums, products, maxima,
  hence matrix products, the bias along rows, the hidden layer and the logits), and on a row of real
  numbers the exponential of the log-softmax is the softmax.
-/
import proofs.«106332_g43568148250684_cont_sun_m_331_2_alg».proof.Proof.Spec
import proofs.«106332_g43568148250684_cont_sun_m_331_2_alg».proof.Proof.IsReal

noncomputable section

namespace Cert.Gcn

open Idealize.ShloMosaic

/-! ### Closure of finiteness -/

theorem IsR.zero : IsR 0 := ⟨0, rfl⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.max {x y : EReal} (hx : IsR x) (hy : IsR y) : IsR (max x y) := by
  rcases max_choice x y with h | h <;> rw [h] <;> assumption

/-- A finite sum of reals is a real. -/
theorem IsR.sum {ι : Type*} (s : Finset ι) (f : ι → EReal) (h : ∀ i ∈ s, IsR (f i)) :
    IsR (∑ i ∈ s, f i) := by
  classical
  induction s using Finset.induction_on with
  | empty => simpa using IsR.zero
  | insert a s ha ih =>
    rw [Finset.sum_insert ha]
    exact IsR.add (h _ (Finset.mem_insert_self _ _)) (ih (fun i hi => h i (Finset.mem_insert_of_mem hi)))

/-- The coercion commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum, taken from −∞, of a nonempty finite family of reals is a real. -/
theorem isR_foldMax {ι : Type*} (g : ι → EReal) (hg : ∀ i, IsR (g i)) (s : Finset ι) (hs : s.Nonempty) :
    IsR (Finset.fold max (⊥ : EReal) g s) := by
  classical
  induction s using Finset.induction_on with
  | empty => exact absurd hs (by simp)
  | insert a s ha ih =>
    rw [Finset.fold_insert ha]
    rcases s.eq_empty_or_nonempty with h | h
    · subst h
      rw [Finset.fold_empty, max_eq_left bot_le]
      exact hg a
    · exact IsR.max (hg a) (ih h)

theorem isR_mm {a b c : ℕ} (A : Fin a → Fin b → EReal) (B : Fin b → Fin c → EReal)
    (hA : ∀ p k, IsR (A p k)) (hB : ∀ k q, IsR (B k q)) (p : Fin a) (q : Fin c) : IsR (mm A B p q) :=
  IsR.sum Finset.univ _ (fun k _ => IsR.mul (hA p k) (hB k q))

theorem isR_addRow {a c : ℕ} (M : Fin a → Fin c → EReal) (b : Fin c → EReal)
    (hM : ∀ p q, IsR (M p q)) (hb : ∀ q, IsR (b q)) (p : Fin a) (q : Fin c) : IsR (addRow M b p q) :=
  IsR.add (hM p q) (hb q)

theorem isR_hid {n d : ℕ} (A : Fin n → Fin n → EReal) (XW : Fin n → Fin d → EReal) (b1 : Fin d → EReal)
    (hA : ∀ p q, IsR (A p q)) (hXW : ∀ p q, IsR (XW p q)) (hb1 : ∀ q, IsR (b1 q)) (p : Fin n) (q : Fin d) :
    IsR (hid A XW b1 p q) :=
  IsR.max (isR_addRow _ _ (isR_mm A XW hA hXW) hb1 p q) IsR.zero

theorem isR_logits {n d c : ℕ} (A : Fin n → Fin n → EReal) (H : Fin n → Fin d → EReal)
    (W : Fin d → Fin c → EReal) (b : Fin c → EReal)
    (hA : ∀ p q, IsR (A p q)) (hH : ∀ p q, IsR (H p q)) (hW : ∀ p q, IsR (W p q)) (hb : ∀ q, IsR (b q))
    (p : Fin n) (q : Fin c) : IsR (logits A H W b p q) :=
  isR_addRow _ _ (isR_mm A _ hA (isR_mm H W hH hW)) hb p q

theorem isR_hidden (x : Fin 10000 → Fin 128 → EReal) (A : Fin 10000 → Fin 10000 → EReal)
    (w1 : Fin 128 → Fin 64 → EReal) (b1 : Fin 64 → EReal)
    (hx : ∀ p q, IsR (x p q)) (hA : ∀ p q, IsR (A p q)) (hw1 : ∀ p q, IsR (w1 p q)) (hb1 : ∀ q, IsR (b1 q))
    (p : Fin 10000) (q : Fin 64) : IsR (hidden x A w1 b1 p q) :=
  isR_hid A _ b1 hA (isR_mm x w1 hx hw1) hb1 p q

theorem isR_y1 (x : Fin 10000 → Fin 128 → EReal) (A : Fin 10000 → Fin 10000 → EReal)
    (w1 : Fin 128 → Fin 64 → EReal) (b1 : Fin 64 → EReal) (w2 : Fin 64 → Fin 16 → EReal) (b2 : Fin 16 → EReal)
    (hx : ∀ p q, IsR (x p q)) (hA : ∀ p q, IsR (A p q)) (hw1 : ∀ p q, IsR (w1 p q)) (hb1 : ∀ q, IsR (b1 q))
    (hw2 : ∀ p q, IsR (w2 p q)) (hb2 : ∀ q, IsR (b2 q)) (p : Fin 10000) (k : Fin 16) :
    IsR (y1 x A w1 b1 w2 b2 p k) :=
  isR_logits A _ w2 b2 hA (isR_hidden x A w1 b1 hx hA hw1 hb1) hw2 hb2 p k

theorem isR_y2 (x : Fin 10000 → Fin 128 → EReal) (A : Fin 10000 → Fin 10000 → EReal)
    (w1 : Fin 128 → Fin 64 → EReal) (b1 : Fin 64 → EReal) (w3 : Fin 64 → Fin 2 → EReal) (b3 : Fin 2 → EReal)
    (hx : ∀ p q, IsR (x p q)) (hA : ∀ p q, IsR (A p q)) (hw1 : ∀ p q, IsR (w1 p q)) (hb1 : ∀ q, IsR (b1 q))
    (hw3 : ∀ p q, IsR (w3 p q)) (hb3 : ∀ q, IsR (b3 q)) (p : Fin 10000) (k : Fin 2) :
    IsR (y2 x A w1 b1 w3 b3 p k) :=
  isR_logits A _ w3 b3 hA (isR_hidden x A w1 b1 hx hA hw1 hb1) hw3 hb3 p k

/-! ### The softmax law on a row of reals -/

/-- The maximum of a nonempty row of reals is a real. -/
theorem isR_rowMax {c : ℕ} (y : Fin c → EReal) (hy : ∀ k, IsR (y k)) (k : Fin c) : IsR (rowMax y) := by
  unfold rowMax
  rw [ofBits_negInf]
  exact isR_foldMax y hy Finset.univ ⟨k, Finset.mem_univ k⟩

/-- The sum of exponentials of a nonempty row of reals is a positive real. -/
theorem expSum_pos {c : ℕ} (r : Fin c → ℝ) (m : ℝ) (y : Fin c → EReal) (hr : ∀ j, y j = (r j : EReal))
    (hm : rowMax y = (m : EReal)) (k : Fin c) :
    ∃ s : ℝ, expSum y = (s : EReal) ∧ 0 < s := by
  refine ⟨∑ j : Fin c, Real.exp (r j - m), ?_, Finset.sum_pos (fun i _ => Real.exp_pos _) ⟨k, Finset.mem_univ k⟩⟩
  unfold expSum
  rw [← coe_sum]
  refine Finset.sum_congr rfl (fun j _ => ?_)
  rw [hm, hr j, ← EReal.coe_sub, Ideal.exp_coe]

/-- With every entry of the row real, exp (log-softmax) = softmax: both are exp (yₖ − m) / S with
    m real and S a positive real. -/
theorem exp_lsm_eq_smx {c : ℕ} (y : Fin c → EReal) (hy : ∀ k, IsR (y k)) (k : Fin c) :
    Ideal.exp (lsm y k) = smx y k := by
  obtain ⟨m, hm⟩ := isR_rowMax y hy k
  choose r hr using hy
  obtain ⟨s, hS, hpos⟩ := expSum_pos r m y hr hm k
  unfold lsm smx
  rw [hS, hm, hr k, ← EReal.coe_sub, Ideal.log_coe, if_neg (not_le.mpr hpos), ← EReal.coe_sub,
    Ideal.exp_coe, Ideal.exp_coe, Ideal.div_coe (ne_of_gt hpos), ← EReal.coe_mul]
  congr 1
  rw [Real.exp_sub, Real.exp_log hpos, one_div, div_eq_mul_inv]

end Cert.Gcn

end
-- ==== Proof.PreReal.lean ====
/-
  Finiteness of every input entry, read back from the certificate's precondition.

  The precondition computes, for each of the eight float arrays a, the bit  all(|a| < +∞)  and takes the
  conjunction of the eight bits. When that conjunction is 1, every bit is 1; a conjunction over all entries that
  is 1 has a 1 at every entry; and  |x| < +∞  on the extended reals, with |x| = max x (-x), says that x is
  neither +∞ nor −∞, that is, x is a real number.
-/
import proofs.«106332_g43568148250684_cont_sun_m_331_2_alg».proof.Pre_finite_inputs
import proofs.«106332_g43568148250684_cont_sun_m_331_2_alg».proof.Proof.IsReal
import Idealize.ShloMosaic.PureOps.Ideal
import Idealize.ShloMosaic.PureOps.Ideal.Laws
import Idealize.ShloMosaic.Lib.ValueIdx
import Idealize.ShloMosaic.Lib.ReduceAll

namespace Cert.Gcn

open Idealize.ShloMosaic

/-- The f32 word 0x7F800000 denotes +∞. -/
theorem ofBits_inf_f32 : Ideal.ofBits .f32 0x7F800000#32 = (⊤ : EReal) := by
  simp [Ideal.ofBits, Ideal.ieee]

/-- An extended real whose absolute value max x (-x) lies strictly below +∞ is a real number. -/
theorem isR_of_abs_lt_top (x : EReal) (h : max x (-x) < (⊤ : EReal)) : IsR x := by
  induction x using EReal.rec with
  | bot => simp at h
  | coe r => exact IsR.coe r
  | top => simp at h

/-- The element fact: the comparison  |x| < (the word 0x7F800000)  being 1 makes x a real number. -/
theorem isR_of_cmp (x : Ideal .f32)
    (h : FloatOps.cmpf (F := Ideal) .olt (FloatOps.hostAbsf x) (FloatOps.ofBits .f32 0x7F800000#32) = 1#1) : IsR x := by
  apply isR_of_abs_lt_top
  rw [Ideal.hostAbsf_def, Ideal.cmpf_def, Ideal.absf_def] at h
  change Ideal.cmp .olt (max x (-x)) (Ideal.ofBits .f32 0x7F800000#32) = 1#1 at h
  rw [ofBits_inf_f32] at h
  by_contra hn
  simp [Ideal.cmp, hn] at h

instance preReal_subsingleton_S_Idx : Subsingleton Cert.Pre_finite_inputs.S_.Idx := ⟨fun a b => funext fun d => d.elim0⟩

/-- One array of any shape: if the conjunction over all entries of  |a| < +∞  is 1, every entry is a real number. -/
theorem real_of_all {s : Shape} {axes : List (Fin s.rank)} (a : FVec Ideal s .f32)
    (hb : Cert.Pre_finite_inputs.S_.BroadcastsInDim s (![] : Fin 0 → Fin s.rank))
    (hred : s.ReducesTo axes Cert.Pre_finite_inputs.S_) (hS : 0 < Cert.Pre_finite_inputs.S_.numel)
    (h : Host.reduce IntOp.andi
        (cmpf .olt (Host.absf a)
          (broadcastInDim s ![] hb (constant (F := Ideal) Cert.Pre_finite_inputs.S_ .f32 0x7F800000#32)))
        (constantI Cert.Pre_finite_inputs.S_ 1 1#1) hred hS ValueIdx.ix0 = 1#1) :
    ∀ i, IsR (a i) := by
  intro i
  have e := Host.reduce_andi_all _ _ hred hS ValueIdx.ix0 h i
  exact isR_of_cmp (a i) e

theorem real_of_pre [Cert.Pre_finite_inputs.Facts] (a0 : FVec Ideal Cert.Pre_finite_inputs.S10000x128 .f32) (a1 : FVec Ideal Cert.Pre_finite_inputs.S10000x10000 .f32) (a2 : FVec Ideal Cert.Pre_finite_inputs.S128x64 .f32) (a3 : FVec Ideal Cert.Pre_finite_inputs.S64 .f32) (a4 : FVec Ideal Cert.Pre_finite_inputs.S64x16 .f32) (a5 : FVec Ideal Cert.Pre_finite_inputs.S16 .f32) (a6 : FVec Ideal Cert.Pre_finite_inputs.S64x2 .f32) (a7 : FVec Ideal Cert.Pre_finite_inputs.S2 .f32) (h : Cert.Pre_finite_inputs.fn (F := Ideal) a0 a1 a2 a3 a4 a5 a6 a7 = fun _ => 1#1) : (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) := by
  have h0 := congrFun h ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Gcn
-- ==== Proof.lean ====
/-
  A two-layer graph convolution with two softmax heads, as a launched kernel program and as a plain reference.

  With A the adjacency matrix (10000 × 10000), X the features (10000 × 128), W₁, b₁ the first layer and (W₂, b₂),
  (W₃, b₃) the two heads (16 and 2 classes), both programs compute H = max (A · (X · W₁) + b₁, 0), the logits
  Y₁ = A · (H · W₂) + b₂ and Y₂ = A · (H · W₃) + b₃, and return the log-softmax of each row of Y₁, the log-softmax of
  each row of Y₂, and the last softmax entry of each row of Y₁.

  The kernel program does it in three launched regions: X · W₁ in one piece; then, 400 rows of A at a time,
  max (A · XW + b₁, 0) · [W₂ | W₃] with the two heads' weights side by side; then, again 400 rows of A at a time,
  A · HW + [b₂ | b₃], its first 16 columns and last 2 columns each sent through a log-softmax, and the exponential of
  entry 15 of the first. The reference applies the six matrix products one after another and the usual log-softmax
  and softmax along rows.

  On the extended reals the two agree: sums and products are the exact ones, so tiling the rows and pairing the heads
  change nothing (column k of the pair is column k of W₂, column 16 + k is column k of W₃); the two log-softmax
  results are the same expression, (y − m) − log ∑ exp (y − m) with m the row's maximum; and the last result is
  exp ((y₁₅ − m) − log S) in the kernel against exp (y₁₅ − m) / S in the reference, S = ∑ exp (y − m) — equal because,
  the inputs being finite, every logit is a real number, so S is a positive real and exp (a − log S) = exp a / S.
  That last step is the only place the precondition is used.
-/
import proofs.«106332_g43568148250684_cont_sun_m_331_2_alg».proof.Defs
import proofs.«106332_g43568148250684_cont_sun_m_331_2_alg».proof.Proof.Gen.Kernel
import proofs.«106332_g43568148250684_cont_sun_m_331_2_alg».proof.Proof.Gen.Kernel.Skeleton
import proofs.«106332_g43568148250684_cont_sun_m_331_2_alg».proof.Proof.Gen.Kernel.Launch
import proofs.«106332_g43568148250684_cont_sun_m_331_2_alg».proof.Proof.Gen.Kernel.Points
import proofs.«106332_g43568148250684_cont_sun_m_331_2_alg».proof.Proof.Gen.Kernel.Frame
import proofs.«106332_g43568148250684_cont_sun_m_331_2_alg».proof.Proof.Gen.KernelIdeal
import proofs.«106332_g43568148250684_cont_sun_m_331_2_alg».proof.Proof.Gen.KernelIdeal.Skeleton
import proofs.«106332_g43568148250684_cont_sun_m_331_2_alg».proof.Proof.Gen.KernelIdeal.Launch
import proofs.«106332_g43568148250684_cont_sun_m_331_2_alg».proof.Proof.Gen.KernelIdeal.Points
import proofs.«106332_g43568148250684_cont_sun_m_331_2_alg».proof.Proof.Gen.KernelIdeal.Frame
import proofs.«106332_g43568148250684_cont_sun_m_331_2_alg».proof.Proof.Gen.ReferenceIdeal
import proofs.«106332_g43568148250684_cont_sun_m_331_2_alg».proof.Proof.Gen.Pre_finite_inputs
import proofs.«106332_g43568148250684_cont_sun_m_331_2_alg».proof.Proof.KernelRun
import proofs.«106332_g43568148250684_cont_sun_m_331_2_alg».proof.Proof.Values
import proofs.«106332_g43568148250684_cont_sun_m_331_2_alg».proof.Proof.RefValue
import proofs.«106332_g43568148250684_cont_sun_m_331_2_alg».proof.Proof.RealLaws
import proofs.«106332_g43568148250684_cont_sun_m_331_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Cert.Gcn

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote nothing: there is nothing to preserve. -/
theorem preserves : Cert.preserves_Kernel_KernelIdeal := trivial

/-- From memories agreeing on the arguments, both idealized programs end with the same three results: the two
    log-softmax heads, equal as expressions of the arguments, and the first head's last softmax entry, where the
    kernel's exp (log-softmax) meets the reference's quotient because every logit is finite. -/
theorem algebraic : Cert.algebraic_KernelIdeal_ReferenceIdeal := by
  intro m ρ m' ρ' hpre hagree
  refine ⟨fun c => (fun i : Cert.KernelIdeal.S10000x16.Idx => lsm (y1 (c2 (m ((c.tc : Thread Cert.KernelIdeal.nD Cert.KernelIdeal.τ).loc Cert.KernelIdeal.main_arg0))) (c2 (m ((c.tc : Thread Cert.KernelIdeal.nD Cert.KernelIdeal.τ).loc Cert.KernelIdeal.main_arg1))) (c2 (m ((c.tc : Thread Cert.KernelIdeal.nD Cert.KernelIdeal.τ).loc Cert.KernelIdeal.main_arg2)))
        (c1 (m ((c.tc : Thread Cert.KernelIdeal.nD Cert.KernelIdeal.τ).loc Cert.KernelIdeal.main_arg3))) (c2 (m ((c.tc : Thread Cert.KernelIdeal.nD Cert.KernelIdeal.τ).loc Cert.KernelIdeal.main_arg4))) (c1 (m ((c.tc : Thread Cert.KernelIdeal.nD Cert.KernelIdeal.τ).loc Cert.KernelIdeal.main_arg5))) (i 0)) (i 1)),
    fun c => (fun i : Cert.KernelIdeal.S10000x2.Idx => lsm (y2 (c2 (m ((c.tc : Thread Cert.KernelIdeal.nD Cert.KernelIdeal.τ).loc Cert.KernelIdeal.main_arg0))) (c2 (m ((c.tc : Thread Cert.KernelIdeal.nD Cert.KernelIdeal.τ).loc Cert.KernelIdeal.main_arg1))) (c2 (m ((c.tc : Thread Cert.KernelIdeal.nD Cert.KernelIdeal.τ).loc Cert.KernelIdeal.main_arg2)))
        (c1 (m ((c.tc : Thread Cert.KernelIdeal.nD Cert.KernelIdeal.τ).loc Cert.KernelIdeal.main_arg3))) (c2 (m ((c.tc : Thread Cert.KernelIdeal.nD Cert.KernelIdeal.τ).loc Cert.KernelIdeal.main_arg6))) (c1 (m ((c.tc : Thread Cert.KernelIdeal.nD Cert.KernelIdeal.τ).loc Cert.KernelIdeal.main_arg7))) (i 0)) (i 1)),
    fun c => (fun i : Cert.KernelIdeal.S10000.Idx => smx (y1 (c2 (m ((c.tc : Thread Cert.KernelIdeal.nD Cert.KernelIdeal.τ).loc Cert.KernelIdeal.main_arg0))) (c2 (m ((c.tc : Thread Cert.KernelIdeal.nD Cert.KernelIdeal.τ).loc Cert.KernelIdeal.main_arg1))) (c2 (m ((c.tc : Thread Cert.KernelIdeal.nD Cert.KernelIdeal.τ).loc Cert.KernelIdeal.main_arg2)))
        (c1 (m ((c.tc : Thread Cert.KernelIdeal.nD Cert.KernelIdeal.τ).loc Cert.KernelIdeal.main_arg3))) (c2 (m ((c.tc : Thread Cert.KernelIdeal.nD Cert.KernelIdeal.τ).loc Cert.KernelIdeal.main_arg4))) (c1 (m ((c.tc : Thread Cert.KernelIdeal.nD Cert.KernelIdeal.τ).loc Cert.KernelIdeal.main_arg5))) (i 0)) (15 : Fin 16)),
    ?_, ?_⟩
  · -- the kernel program's run, its results read back to the arguments
    refine (θ_run Cert.KernelIdeal.defs _ _).mono (fun r h c => ?_) (Cert.KernelIdeal.Run.results (F := Ideal) m ρ)
    obtain ⟨h0, h1, h2, hargs⟩ := h c
    refine ⟨h0.trans (Cert.KernelIdeal.Values.res1 m ρ c), h1.trans (Cert.KernelIdeal.Values.res2 m ρ c),
      h2.trans ((Cert.KernelIdeal.Values.res3 m ρ c).trans ?_), hargs⟩
    -- every input entry is a real number, hence every logit, hence exp (log-softmax) is the softmax
    obtain ⟨r0, r1, r2, r3, r4, r5, -, -⟩ := Cert.Gcn.real_of_pre _ _ _ _ _ _ _ _ (hpre c)
    funext i
    exact exp_lsm_eq_smx _ (fun k => isR_y1 _ _ _ _ _ _ (fun p q => r0 _) (fun p q => r1 _) (fun p q => r2 _) (fun q => r3 _)
      (fun p q => r4 _) (fun q => r5 _) (i 0) k) (15 : Fin 16)
  · -- the reference's run, its results read one operation at a time, at arguments that agree with the kernel's
    refine (θ_run Cert.ReferenceIdeal.defs _ _).mono (fun r h c => ?_) (Cert.ReferenceIdeal.ValueP.run (F := Ideal) m' ρ')
    obtain ⟨h0, h1, h2, hargs⟩ := h c
    obtain ⟨a0, a1, a2, a3, a4, a5, a6, a7⟩ := hagree c
    refine ⟨?_, ?_, ?_, hargs⟩
    · rw [h0, Cert.ReferenceIdeal.ReadP.val_main_v16_eq, Cert.ReferenceIdeal.RefValue.out1_eq, a0, a1, a2, a3, a4, a5]
    · rw [h1, Cert.ReferenceIdeal.ReadP.val_main_v17_eq, Cert.ReferenceIdeal.RefValue.out2_eq, a0, a1, a2, a3, a6, a7]
    · rw [h2, Cert.ReferenceIdeal.ReadP.val_main_v30_eq, Cert.ReferenceIdeal.RefValue.out3_eq, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
